-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S65536x64 .f32) (main_arg1 : FVec F S1024x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S65536x64 : Shape := ⟨2, ![65536, 64]⟩
abbrev S1024x64 : Shape := ⟨2, ![1024, 64]⟩
abbrev S64x65536 : Shape := ⟨2, ![64, 65536]⟩
abbrev S1x1 : Shape := ⟨2, ![1, 1]⟩
abbrev S64x16384 : Shape := ⟨2, ![64, 16384]⟩
abbrev S1024x66 : Shape := ⟨2, ![1024, 66]⟩
abbrev S1024 : Shape := ⟨1, ![1024]⟩
abbrev S1024x1 : Shape := ⟨2, ![1024, 1]⟩
abbrev S2x16384 : Shape := ⟨2, ![2, 16384]⟩
abbrev S66x16384 : Shape := ⟨2, ![66, 16384]⟩
abbrev S256x66 : Shape := ⟨2, ![256, 66]⟩
abbrev S256x16384 : Shape := ⟨2, ![256, 16384]⟩
abbrev S8x16384 : Shape := ⟨2, ![8, 16384]⟩
abbrev S16384 : Shape := ⟨1, ![16384]⟩
abbrev S1x16384 : Shape := ⟨2, ![1, 16384]⟩
abbrev S1x1x16384 : Shape := ⟨3, ![1, 1, 16384]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S64x65536, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S64x16384, .f32⟩
  | .local _ .vmem, ⟨1, _⟩ => ⟨S64x16384, .f32⟩
  | .local _ .vmem, ⟨2, _⟩ => ⟨S1024x64, .f32⟩
  | .local _ .vmem, ⟨3, _⟩ => ⟨S1x1, .f32⟩
  | .local _ .vmem, ⟨4, _⟩ => ⟨S1024x66, .bf16⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S65536x64_S64x65536_1_0 : S65536x64.Transposes [1, 0] S64x65536
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  concatenates_S1024x64_S1024x1_S1024x1_S1024x66_d1 : Shape.Concatenates [S1024x64, S1024x1, S1024x1] S1024x66 1
  inb_S1024x66_S1024x66_0_0 : ∀ a, (![0, 0] : Fin 2 → Nat) a + S1024x66.size a ≤ S1024x66.size a
  h_S1024x66 : 0 < S1024x66.numel
  shapeCasts_S1024x66_S1024x66 : S1024x66.ShapeCasts S1024x66
  packedbf16_S1024x66_S1024x66_0_0 : (Rect.unit (s := S1024x66) ![0, 0] S1024x66.size inb_S1024x66_S1024x66_0_0).PackedRows (EltTy.packing .bf16)
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  concatenates_S64x16384_S2x16384_S66x16384_d0 : Shape.Concatenates [S64x16384, S2x16384] S66x16384 0
  slices_S1024x66_o0_0_S256x66 : S1024x66.Slices ![0, 0] S256x66
  slices_S256x16384_o0_0_S8x16384 : S256x16384.Slices ![0, 0] S8x16384
  slices_S256x16384_o8_0_S8x16384 : S256x16384.Slices ![8, 0] S8x16384
  slices_S256x16384_o16_0_S8x16384 : S256x16384.Slices ![16, 0] S8x16384
  slices_S256x16384_o24_0_S8x16384 : S256x16384.Slices ![24, 0] S8x16384
  slices_S256x16384_o32_0_S8x16384 : S256x16384.Slices ![32, 0] S8x16384
  slices_S256x16384_o40_0_S8x16384 : S256x16384.Slices ![40, 0] S8x16384
  slices_S256x16384_o48_0_S8x16384 : S256x16384.Slices ![48, 0] S8x16384
  slices_S256x16384_o56_0_S8x16384 : S256x16384.Slices ![56, 0] S8x16384
  slices_S256x16384_o64_0_S8x16384 : S256x16384.Slices ![64, 0] S8x16384
  slices_S256x16384_o72_0_S8x16384 : S256x16384.Slices ![72, 0] S8x16384
  slices_S256x16384_o80_0_S8x16384 : S256x16384.Slices ![80, 0] S8x16384
  slices_S256x16384_o88_0_S8x16384 : S256x16384.Slices ![88, 0] S8x16384
  slices_S256x16384_o96_0_S8x16384 : S256x16384.Slices ![96, 0] S8x16384
  slices_S256x16384_o104_0_S8x16384 : S256x16384.Slices ![104, 0] S8x16384
  slices_S256x16384_o112_0_S8x16384 : S256x16384.Slices ![112, 0] S8x16384
  slices_S256x16384_o120_0_S8x16384 : S256x16384.Slices ![120, 0] S8x16384
  slices_S256x16384_o128_0_S8x16384 : S256x16384.Slices ![128, 0] S8x16384
  slices_S256x16384_o136_0_S8x16384 : S256x16384.Slices ![136, 0] S8x16384
  slices_S256x16384_o144_0_S8x16384 : S256x16384.Slices ![144, 0] S8x16384
  slices_S256x16384_o152_0_S8x16384 : S256x16384.Slices ![152, 0] S8x16384
  slices_S256x16384_o160_0_S8x16384 : S256x16384.Slices ![160, 0] S8x16384
  slices_S256x16384_o168_0_S8x16384 : S256x16384.Slices ![168, 0] S8x16384
  slices_S256x16384_o176_0_S8x16384 : S256x16384.Slices ![176, 0] S8x16384
  slices_S256x16384_o184_0_S8x16384 : S256x16384.Slices ![184, 0] S8x16384
  slices_S256x16384_o192_0_S8x16384 : S256x16384.Slices ![192, 0] S8x16384
  slices_S256x16384_o200_0_S8x16384 : S256x16384.Slices ![200, 0] S8x16384
  slices_S256x16384_o208_0_S8x16384 : S256x16384.Slices ![208, 0] S8x16384
  slices_S256x16384_o216_0_S8x16384 : S256x16384.Slices ![216, 0] S8x16384
  slices_S256x16384_o224_0_S8x16384 : S256x16384.Slices ![224, 0] S8x16384
  slices_S256x16384_o232_0_S8x16384 : S256x16384.Slices ![232, 0] S8x16384
  slices_S256x16384_o240_0_S8x16384 : S256x16384.Slices ![240, 0] S8x16384
  slices_S256x16384_o248_0_S8x16384 : S256x16384.Slices ![248, 0] S8x16384
  slices_S1024x66_o256_0_S256x66 : S1024x66.Slices ![256, 0] S256x66
  slices_S1024x66_o512_0_S256x66 : S1024x66.Slices ![512, 0] S256x66
  slices_S1024x66_o768_0_S256x66 : S1024x66.Slices ![768, 0] S256x66
  reduces_S8x16384_S16384 : S8x16384.Reduces [0] S16384
  shapeCasts_S16384_S1x16384 : S16384.ShapeCasts S1x16384
  reduces_S64x16384_S16384 : S64x16384.Reduces [0] S16384
  shapeCasts_S1x16384_S1x1x16384 : S1x16384.ShapeCasts S1x1x16384
  reduces_S1x1x16384_S1 : S1x1x16384.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S256x66_S66x16384_S256x16384_1_0_0_1_n_n_wf : DotDims.WF S256x66 S66x16384 S256x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x65536.size a
  hwx0_0 : ∀ i : grid0.Coords, EltTy.bits .f32 = 32 ∨ (Rect.block (s := S64x65536) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S256x66_S66x16384_S256x16384_1_0_0_1_n_n : DotDims S256x66 S66x16384 S256x16384 where
  lhsContracting := [1]
  rhsContracting := [0]
  lhsNonContracting := [0]
  rhsNonContracting := [1]
  lhsBatch := []
  rhsBatch := []
  wf := dot_S256x66_S66x16384_S256x16384_1_0_0_1_n_n_wf

abbrev win0_0 : Pipeline.Window sig grid0 :=
  Pipeline.Window.ofSpec (Memref.whole main_v0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S64x1024 : Shape := ⟨2, ![64, 1024]⟩
abbrev S65536x1024 : Shape := ⟨2, ![65536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S64x1024, .f32⟩
  | .hbm, ⟨11, _⟩ => ⟨S65536x1024, .f32⟩
  | .hbm, ⟨12, _⟩ => ⟨S_, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  transposes_S1024x64_S64x1024_1_0 : S1024x64.Transposes [1, 0] S64x1024
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  reducesTo_S65536_S_d0 : S65536.ReducesTo [0] S_
  dot_S65536x64_S64x1024_S65536x1024_1_0_0_1_n_n_wf : DotDims.WF S65536x64 S64x1024 S65536x1024 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf

class Facts : Prop extends Facts₀ where

variable [Facts]
-- ==== Proof.StepTerm.lean ====
/-
  One block's share as the kernel body computes it, named: from the block of embedded rows (transposed, 64 × 16384)
  and the 1024 × 66 array of the centers' rows, the four products of 256 center rows with the block, the least entry
  over the center rows in each of the 16384 columns (folded eight rows at a time, pair by pair), the column's squared
  length added, and all columns summed into one number.
-/
import proofs.«159115_g395136991332_cont_8to1_b_1330_20_alg».proof.Proof.Gen.KernelIdeal.Skeleton
import Idealize.ShloMosaic.Lib.ValueIdx

noncomputable section

namespace Cert.KernelIdeal.Loss

open Idealize.ShloMosaic Cert.KernelIdeal Cert.KernelIdeal.Gen

variable {F : FTy → Type} [FloatOps F]

/-- The block's share, a 1 × 1 array, as the composition of the body's named values of the block `x0` and the centers'
    rows `xs0`. -/
def stepVal (x0 : Vec F S64x16384 .f32) (xs0 : Vec F S1024x66 .bf16) : FVec F S1x1 .f32 :=
  k0_pay114 (k0_pay4 x0)
  (k0_pay93
  (k0_pay65
  (k0_pay32 (k0_pay7 x0 xs0) (k0_pay8 x0 xs0) (k0_pay9 x0 xs0) (k0_pay10 x0 xs0) (k0_pay11 x0 xs0)
  (k0_pay12 x0 xs0) (k0_pay13 x0 xs0) (k0_pay14 x0 xs0) (k0_pay15 x0 xs0) (k0_pay16 x0 xs0)
  (k0_pay17 x0 xs0) (k0_pay18 x0 xs0) (k0_pay19 x0 xs0) (k0_pay20 x0 xs0) (k0_pay21 x0 xs0)
  (k0_pay22 x0 xs0) (k0_pay23 x0 xs0) (k0_pay24 x0 xs0) (k0_pay25 x0 xs0) (k0_pay26 x0 xs0)
  (k0_pay27 x0 xs0) (k0_pay28 x0 xs0) (k0_pay29 x0 xs0) (k0_pay30 x0 xs0) (k0_pay31 x0 xs0))
  (k0_pay34 (k0_pay5 x0) xs0) (k0_pay35 (k0_pay5 x0) xs0) (k0_pay36 (k0_pay5 x0) xs0)
  (k0_pay37 (k0_pay5 x0) xs0) (k0_pay38 (k0_pay5 x0) xs0) (k0_pay39 (k0_pay5 x0) xs0)
  (k0_pay40 (k0_pay5 x0) xs0) (k0_pay41 (k0_pay5 x0) xs0) (k0_pay42 (k0_pay5 x0) xs0)
  (k0_pay43 (k0_pay5 x0) xs0) (k0_pay44 (k0_pay5 x0) xs0) (k0_pay45 (k0_pay5 x0) xs0)
  (k0_pay46 (k0_pay5 x0) xs0) (k0_pay47 (k0_pay5 x0) xs0) (k0_pay48 (k0_pay5 x0) xs0)
  (k0_pay49 (k0_pay5 x0) xs0) (k0_pay50 (k0_pay5 x0) xs0) (k0_pay51 (k0_pay5 x0) xs0)
  (k0_pay52 (k0_pay5 x0) xs0) (k0_pay53 (k0_pay5 x0) xs0) (k0_pay54 (k0_pay5 x0) xs0)
  (k0_pay55 (k0_pay5 x0) xs0) (k0_pay56 (k0_pay5 x0) xs0) (k0_pay57 (k0_pay5 x0) xs0)
  (k0_pay58 (k0_pay5 x0) xs0) (k0_pay59 (k0_pay5 x0) xs0) (k0_pay60 (k0_pay5 x0) xs0)
  (k0_pay61 (k0_pay5 x0) xs0) (k0_pay62 (k0_pay5 x0) xs0) (k0_pay63 (k0_pay5 x0) xs0)
  (k0_pay64 (k0_pay5 x0) xs0))
  (k0_pay66 (k0_pay5 x0) xs0) (k0_pay67 (k0_pay5 x0) xs0) (k0_pay68 (k0_pay5 x0) xs0)
  (k0_pay69 (k0_pay5 x0) xs0) (k0_pay70 (k0_pay5 x0) xs0) (k0_pay71 (k0_pay5 x0) xs0)
  (k0_pay72 (k0_pay5 x0) xs0) (k0_pay73 (k0_pay5 x0) xs0) (k0_pay74 (k0_pay5 x0) xs0)
  (k0_pay75 (k0_pay5 x0) xs0) (k0_pay76 (k0_pay5 x0) xs0) (k0_pay77 (k0_pay5 x0) xs0)
  (k0_pay78 (k0_pay5 x0) xs0) (k0_pay79 (k0_pay5 x0) xs0) (k0_pay80 (k0_pay5 x0) xs0)
  (k0_pay81 (k0_pay5 x0) xs0) (k0_pay82 (k0_pay5 x0) xs0) (k0_pay83 (k0_pay5 x0) xs0)
  (k0_pay84 (k0_pay5 x0) xs0) (k0_pay85 (k0_pay5 x0) xs0) (k0_pay86 (k0_pay5 x0) xs0)
  (k0_pay87 (k0_pay5 x0) xs0) (k0_pay88 (k0_pay5 x0) xs0) (k0_pay89 (k0_pay5 x0) xs0)
  (k0_pay90 (k0_pay5 x0) xs0) (k0_pay91 (k0_pay5 x0) xs0) (k0_pay92 (k0_pay5 x0) xs0))
  (k0_pay94 (k0_pay5 x0) xs0) (k0_pay95 (k0_pay5 x0) xs0) (k0_pay96 (k0_pay5 x0) xs0) (k0_pay97 (k0_pay5 x0) xs0)
  (k0_pay98 (k0_pay5 x0) xs0) (k0_pay99 (k0_pay5 x0) xs0) (k0_pay100 (k0_pay5 x0) xs0)
  (k0_pay101 (k0_pay5 x0) xs0) (k0_pay102 (k0_pay5 x0) xs0) (k0_pay103 (k0_pay5 x0) xs0)
  (k0_pay104 (k0_pay5 x0) xs0) (k0_pay105 (k0_pay5 x0) xs0) (k0_pay106 (k0_pay5 x0) xs0)
  (k0_pay107 (k0_pay5 x0) xs0) (k0_pay108 (k0_pay5 x0) xs0) (k0_pay109 (k0_pay5 x0) xs0)
  (k0_pay110 (k0_pay5 x0) xs0) (k0_pay111 (k0_pay5 x0) xs0) (k0_pay112 (k0_pay5 x0) xs0)
  (k0_pay113 (k0_pay5 x0) xs0)

/-- Entry (k, n) of the 1024 × 16384 array of all scores, read off the four products of 256 center rows each:
    center row `k` lies in product `k / 256` at row `k % 256`. -/
def chunkRow (x0 : Vec Ideal S64x16384 .f32) (xs0 : Vec Ideal S1024x66 .bf16) (k : Fin 1024) (n : Fin 16384) : EReal :=
  if h0 : k.val < 256 then k0_pay6 (F := Ideal) x0 xs0 (ValueIdx.ix2 (⟨k.val, h0⟩ : Fin 256) n)
  else if h1 : k.val < 512 then
    k0_pay33 (F := Ideal) (k0_pay5 x0) xs0 (ValueIdx.ix2 (⟨k.val - 256, by omega⟩ : Fin 256) n)
  else if h2 : k.val < 768 then
    k0_pay66 (F := Ideal) (k0_pay5 x0) xs0 (ValueIdx.ix2 (⟨k.val - 512, by omega⟩ : Fin 256) n)
  else k0_pay94 (F := Ideal) (k0_pay5 x0) xs0 (ValueIdx.ix2 (⟨k.val - 768, by have := k.isLt; omega⟩ : Fin 256) n)

end Cert.KernelIdeal.Loss

end
-- ==== Proof.Pieces.lean ====
/-
  What one run of the kernel body leaves behind, as values. At the first grid point the body stores the centers'
  66-entry rows into the scratch array, stores zero into the 1 × 1 output, reads both back, and leaves
  0 + (the block's share) in the output. At every later point it leaves (what the output held) + (the block's share)
  and does not touch the scratch array.
-/
import proofs.«159115_g395136991332_cont_8to1_b_1330_20_alg».proof.Proof.Gen.KernelIdeal.Frame
import proofs.«159115_g395136991332_cont_8to1_b_1330_20_alg».proof.Proof.StepTerm
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Loss

variable {F : FTy → Type} [FloatOps F]

theorem hz : (![0, 0] : Fin 2 → Nat) = fun _ => 0 := funext fun a => by fin_cases a <;> rfl

/-- A later grid point: the output ends at what it held plus the block's share (`k0_pay2 s xo` is `xo + s`). -/
theorem out_B (c : Dev nD) (i : grid0.Coords) (a1 : Memref sig .tc .vmem S64x16384 .f32) (h1 : a1.IsWhole)
    (a2 : Memref sig .tc .vmem S1024x64 .f32) (h2 : a2.IsWhole) (a3 : Memref sig .tc .vmem S1x1 .f32) (h3 : a3.IsWhole)
    (a4 : Memref sig .tc .vmem S1024x66 .bf16) (h4 : a4.IsWhole) (hc0 : ¬cond0_0 i) (hc1 : ¬cond0_1 i)
    (x0 : Vec F S64x16384 .f32) (x1 : Vec F S1024x64 .f32) (xo2 : Vec F S1x1 .f32) (xs0 : Vec F S1024x66 .bf16) :
    out0_B_2 c i a1 h1 a2 h2 a3 h3 a4 h4 hc0 hc1 x0 x1 xo2 xs0 = k0_pay2 (stepVal x0 xs0) xo2 := by
  unfold out0_B_2
  rw [View.read_writes_eq_canon _ _ _ (cover0_B_2 c i a1 h1 a2 h2 a3 h3 a4 h4 hc0 hc1 x0 x1 xo2 xs0)]
  unfold kernelRun0_B
  dsimp only
  sl_unfold_words
  rw [View.canon_unit_zero hz]
  simp only [View.readAt_eq_ld, h1.read_unread, h3.read_unread, h4.read_unread, View.ld_unit_zero (S := S1x1) hz,
    View.ld_unit_zero (S := S64x16384) hz, View.ld_unit_zero (S := S1024x66) hz]
  rfl

/-- The first grid point: the scratch array ends at the centers' 66-entry rows. -/
theorem sout_A (c : Dev nD) (i : grid0.Coords) (a1 : Memref sig .tc .vmem S64x16384 .f32) (h1 : a1.IsWhole)
    (a2 : Memref sig .tc .vmem S1024x64 .f32) (h2 : a2.IsWhole) (a3 : Memref sig .tc .vmem S1x1 .f32) (h3 : a3.IsWhole)
    (a4 : Memref sig .tc .vmem S1024x66 .bf16) (h4 : a4.IsWhole) (hc0 : cond0_0 i) (hc1 : cond0_1 i)
    (x0 : Vec F S64x16384 .f32) (x1 : Vec F S1024x64 .f32) :
    sout0_A_0 c i a1 h1 a2 h2 a3 h3 a4 h4 hc0 hc1 x0 x1 = k0_pay3 x1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_unit_zero hz]
  simp only [View.readAt_eq_ld, h2.read_unread, View.ld_unit_zero (S := S1024x64) hz]

/-- The first grid point: the output ends at zero plus the share of the block against the rows just stored. -/
theorem out_A (c : Dev nD) (i : grid0.Coords) (a1 : Memref sig .tc .vmem S64x16384 .f32) (h1 : a1.IsWhole)
    (a2 : Memref sig .tc .vmem S1024x64 .f32) (h2 : a2.IsWhole) (a3 : Memref sig .tc .vmem S1x1 .f32) (h3 : a3.IsWhole)
    (a4 : Memref sig .tc .vmem S1024x66 .bf16) (h4 : a4.IsWhole) (hc0 : cond0_0 i) (hc1 : cond0_1 i)
    (x0 : Vec F S64x16384 .f32) (x1 : Vec F S1024x64 .f32) :
    out0_A_2 c i a1 h1 a2 h2 a3 h3 a4 h4 hc0 hc1 x0 x1 = k0_pay2 (stepVal x0 (k0_pay3 x1)) (k0_pay1 (F := F)) := by
  unfold out0_A_2
  rw [View.read_writes_eq_canon _ _ _ (cover0_A_2 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S64x16384) hz,
    View.ld_unit_zero (S := S1024x64) hz, View.readCov_unit_zero (S := S1024x66) _ hz]
  rfl

end Cert.KernelIdeal.Pieces

end
-- ==== Proof.Accumulate.lean ====
/-
  The kernel's run, read: after grid point n the 1 × 1 output holds zero plus the shares of blocks 0 … n, added in
  order, each against the centers' 66-entry rows the first point stored; the one write-back, after the last point,
  puts that into the result array; the host then reshapes it to a scalar and divides by the row count.
-/
import proofs.«159115_g395136991332_cont_8to1_b_1330_20_alg».proof.Proof.Pieces
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Accumulate

open Cert.KernelIdeal Cert.KernelIdeal.Gen Cert.KernelIdeal.Loss Cert.KernelIdeal.Pieces

variable {F : FTy → Type} [FloatOps F]
variable (m : (ℓ : Loc nD τ sig) → Buf (Elt F) ℓ) (ρ : Dev nD → PrngReg)

theorem lt4 {n : ℕ} (h : n < 4) : n < cfg0.N := by rw [show cfg0.N = 4 from N_0]; exact h

/-- Block `n` of the transposed embedded rows, as the window reads it at grid point `n`. -/
def blockAt (c : Dev nD) (n : ℕ) (h : n < cfg0.N) : Vec F S64x16384 .f32 := iblk m c 0 ⟨n, h⟩

/-- The centers, as their window reads them at the first grid point (the whole array). -/
def centers (c : Dev nD) : Vec F S1024x64 .f32 := iblk m c 1 ⟨0, lt4 (by decide)⟩

/-- The centers' 66-entry rows, as the first grid point stores them. -/
def rows (c : Dev nD) : Vec F S1024x66 .bf16 := k0_pay3 (centers m c)

/-- One more block's share added to a running total `xo`. -/
def step (c : Dev nD) (n : ℕ) (h : n < cfg0.N) (xo : Vec F S1x1 .f32) : Vec F S1x1 .f32 :=
  k0_pay2 (stepVal (blockAt m c n h) (rows m c)) xo

/-- The running totals after grid points 0, 1, 2, 3: zero, then the blocks' shares added in order. -/
def acc0 (c : Dev nD) : Vec F S1x1 .f32 := step m c 0 (lt4 (by decide)) (k0_pay1 (F := F))
def acc1 (c : Dev nD) : Vec F S1x1 .f32 := step m c 1 (lt4 (by decide)) (acc0 m c)
def acc2 (c : Dev nD) : Vec F S1x1 .f32 := step m c 2 (lt4 (by decide)) (acc1 m c)
def acc3 (c : Dev nD) : Vec F S1x1 .f32 := step m c 3 (lt4 (by decide)) (acc2 m c)

/-- After the first point the output holds the first running total and the scratch array the centers' rows. -/
theorem outs0 (c : Dev nD) (h : 0 < cfg0.N) : outsAt0 m c 0 h = (acc0 m c, rows m c) := by
  rw [outsAt0_A m c ⟨0, h⟩ rfl rfl, out_A, sout_A]
  rfl

/-- A later point adds its block's share and keeps the scratch array. -/
theorem outs_succ (c : Dev nD) (n : ℕ) (h : n + 1 < cfg0.N) (a : Vec F S1x1 .f32)
    (ih : outsAt0 m c n (Nat.lt_of_succ_lt h) = (a, rows m c)) :
    outsAt0 m c (n + 1) h = (step m c (n + 1) h a, rows m c) := by
  have hN : cfg0.N = 4 := N_0
  have hB : ¬(⟨n + 1, h⟩ : Fin cfg0.N).val % 4 = 0 := by dsimp only; omega
  rw [outsAt0_B m c ⟨n + 1, h⟩ hB hB, out_B]
  show (k0_pay2 (stepVal _ (outsAt0 m c n _).2) (outsAt0 m c n _).1, (outsAt0 m c n _).2) = _
  rw [ih]
  rfl

theorem outs3 (c : Dev nD) (h : 3 < cfg0.N) : outsAt0 m c 3 h = (acc3 m c, rows m c) :=
  outs_succ m c 2 h _ (outs_succ m c 1 _ _ (outs_succ m c 0 _ _ (outs0 m c _)))

/-- The running total after the last point, as contents of the result array (its one block is the whole array). -/
abbrev result (c : Dev nD) : Buf (Elt F) ((c : Thread nD τ).loc main_v1) :=
  acc3 m c

/-- The one write-back, after the last point, writes it: the 1 × 1 block at zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2]
  have e : outsAt0 m c (t0_3 : Fin cfg0.N).val t0_3.isLt = (acc3 m c, rows m c) := outs3 m c _
  rw [e]
  have hz' : (fun a => win0_2.index t0_3 a * main_v1.ty.shape.size a) = fun _ => 0 := funext fun a => by fin_cases a <;> decide
  exact (Memref.read_access_unit_zero (Elt F) main_v1 hz' (fun a => by rw [congrFun hz' a]; simp) (result m c)).symm

/-- So the result array ends holding the running total after the last point. -/
theorem final_o (c : Dev nD) : (dats m 0 c).arrAt 2 cfg0.N = result m c :=
  (dats m 0 c).arrAt_eq_of_cover 2 (result m c) (flushed_eq m c) fun i =>
    ⟨t0_3, (flush0_2 t0_3).mpr rfl, by
      show i ∈ ((View.whole main_v1).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The host's last lines: the 1 × 1 array as a scalar, divided by the row count 65536. -/
def tail (a : Vec F S1x1 .f32) : FVec F S_ .f32 :=
  Host.divf (F := F) (shapeCast S_ a shapeCasts_S1x1_S_) (constant (F := F) S_ .f32 0x47800000#32)

/-- The run, read: @main's result is the tail of the running total after the last point; the arguments are unchanged. -/
theorem run : θ_run defs (onTc (τ := τ) (main (F := F))) ⟨m, fun _ => 0, ρ⟩ fun r => ∀ c : Dev nD,
      r.2.mem ((c.tc : Thread nD τ).loc main_v3) = tail (result m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨?_, ?_, ?_⟩) (run_main m ρ)
  · refine ((h c).2 main_v3 (Pipeline.mem_restRefs_of main_v3 (by decide) (by decide))).trans ?_
    unfold Pipeline.afterTail₀
    show StableHlo.after hostOps1 _ (Proc.devRef .tc main_v3) = _
    after_results
    show tail (Pipeline.withArrays (cfgs 0).spec c (V0 m c) (fun w => (dats m 0 c).arrAt w (cfgs 0).N)
      (Proc.devRef .tc main_v1)) = tail (result m c)
    exact congrArg tail ((Pipeline.withArrays_arr spec0 launch0.win.arr_inj c _ _ 2).trans (final_o m c))
  · exact ((h c).2 main_arg0 (Pipeline.mem_restRefs_of main_arg0 (by decide) (by decide))).trans (W_main_arg0 m (dats m) c)
  · exact ((h c).1 1).trans (((dats m 0 c).arrAt_in 1 rfl _).trans ((A_eq m c 1).trans (V_main_arg1 m c)))

end Cert.KernelIdeal.Accumulate

end
-- ==== Proof.Blocks.lean ====
/-
  The windows' blocks in terms of the argument arrays. The first operand of the call is the transpose of the
  embedded rows, a 64 × 65536 array whose block at grid point n is columns 16384 n … 16384 n + 16383: its entry
  (d, q) is entry (16384 n + q, d) of the embedded rows. The second operand is the centers array, read whole.
-/
import proofs.«159115_g395136991332_cont_8to1_b_1330_20_alg».proof.Proof.Accumulate
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Accumulate

variable {F : FTy → Type} [FloatOps F]
variable (m : (ℓ : Loc nD τ sig) → Buf (Elt F) ℓ)

/-- The region finds the first operand at the transpose of the embedded rows. -/
theorem V_main_v0 (c : Dev nD) :
    (V m c main_v0 : S64x65536.Idx → Elt F .f32)
      = transpose S64x65536 [1, 0] (m ((c.tc : Thread nD τ).loc main_arg0)) transposes_S65536x64_S64x65536_1_0 := by
  show StableHlo.after (List.flatten [hostOps0]) (fun b => m (c, b)) (Proc.devRef .tc main_v0) = _
  simp only [List.flatten_cons, List.flatten_nil, List.append_nil]
  after_results

/-- The index maps over the grid: the row block index of the first operand is 0 and its column block index the point;
    the centers' block index is (0, 0). -/
theorem idx_facts : ∀ t : Fin cfg0.N, win0_0.index t 0 = 0 ∧ win0_0.index t 1 = t.val
    ∧ win0_1.index t 0 = 0 ∧ win0_1.index t 1 = 0 :=
  (by decide +kernel : ∀ t : Fin grid0.N, win0_0.index t 0 = 0 ∧ win0_0.index t 1 = t.val
    ∧ win0_1.index t 0 = 0 ∧ win0_1.index t 1 = 0)

/-- Entry (d, q) of block n of the transposed rows is entry (16384 n + q, d) of the embedded rows. -/
theorem blockAt_apply (c : Dev nD) (n : ℕ) (h : n < cfg0.N) (d : Fin 64) (q : Fin 16384) :
    blockAt m c n h (ix2 d q)
      = m ((c.tc : Thread nD τ).loc main_arg0)
          (ix2 (⟨16384 * n + q.val, by have := q.isLt; have : cfg0.N = 4 := N_0; omega⟩ : Fin 65536) d) := by
  have hN : cfg0.N = 4 := N_0
  unfold blockAt iblk
  rw [View.read_apply]
  show V m c main_v0 (((cfg0.win 0).blk ⟨n, h⟩).view.emb (ix2 d q)) = _
  rw [V_main_v0]
  refine transpose_apply [1, 0] _ transposes_S65536x64_S64x65536_1_0 _ _ (fun b => ?_)
  match b with
  | ⟨0, _⟩ =>
    show d.val = win0_0.index ⟨n, h⟩ 0 * 64 + 1 * d.val
    rw [(idx_facts ⟨n, h⟩).1]; omega
  | ⟨1, _⟩ =>
    show 16384 * n + q.val = win0_0.index ⟨n, h⟩ 1 * 16384 + 1 * q.val
    rw [(idx_facts ⟨n, h⟩).2.1]; show 16384 * n + q.val = n * 16384 + 1 * q.val; omega

/-- The centers' block at the first point is the centers array as the region finds it: the block is the whole array at
    zero offsets. -/
theorem centers_eq (c : Dev nD) : centers m c = V m c main_arg1 := by
  unfold centers iblk
  have hz' : (fun a => win0_1.index ⟨0, lt4 (by decide)⟩ a * main_arg1.ty.shape.size a) = fun _ => 0 :=
    funext fun a => by
      match a with
      | ⟨0, _⟩ => show win0_1.index ⟨0, lt4 (by decide)⟩ 0 * 1024 = 0; rw [(idx_facts ⟨0, lt4 (by decide)⟩).2.2.1]
      | ⟨1, _⟩ => show win0_1.index ⟨0, lt4 (by decide)⟩ 1 * 64 = 0; rw [(idx_facts ⟨0, lt4 (by decide)⟩).2.2.2]
  exact Memref.read_access_unit_zero (Elt F) main_arg1 hz' (fun a => by rw [congrFun hz' a]; simp) (V m c main_arg1)

/-- So its entries are the launched centers' entries. -/
theorem centers_apply (c : Dev nD) (k : Fin 1024) (d : Fin 64) :
    centers m c (ix2 k d) = m ((c.tc : Thread nD τ).loc main_arg1) (ix2 k d) := by
  rw [centers_eq, V_main_arg1]

end Cert.KernelIdeal.Blocks

end
-- ==== Proof.Spec.lean ====
/-
  The mathematics of the codebook loss, as functions on the extended reals, stated once for both programs.

  An embedded row `e` and a center `c` are 64-vectors. The kernel never forms the distance matrix: it keeps, per
  center, the 66-entry row (m·c_0, …, m·c_63, |c|², |c|² - |c|²) (with m the factor -2), pairs it with the
  66-entry column (e_0, …, e_63, u, u) (with u the unit), so that one product gives m·⟨c, e⟩ + |c|²·u + (|c|² - |c|²)·u,
  takes the least of these over the 1024 centers, adds |e|², and sums over the rows of a block of 16384 rows; the four
  blocks' sums are added one after the other, starting from zero. The reference sums, over all 65536 rows, the least over
  the centers of (|e|² - t·⟨e, c⟩) + |c|² (with t the factor 2).
-/
import Idealize.ShloMosaic.PureOps.Ideal

noncomputable section

open scoped BigOperators

namespace Cert.Spec

/-- The squared length of a 64-vector. -/
def sqn (x : Fin 64 → EReal) : EReal := ∑ d : Fin 64, x d * x d

/-- The inner product of two 64-vectors. -/
def dot (x y : Fin 64 → EReal) : EReal := ∑ d : Fin 64, x d * y d

/-- Entry `j` of a center's 66-entry row: `m2 · c_j` below 64, then `|c|²`, then `|c|² - |c|²`. -/
def caug (m2 : EReal) (c : Fin 64 → EReal) (j : Fin 66) : EReal :=
  if h : j.val < 64 then m2 * c ⟨j.val, h⟩ else if j.val = 64 then sqn c else sqn c - sqn c

/-- Entry `j` of an embedded row's 66-entry column: `e_j` below 64, then the unit twice. -/
def eaug (one : EReal) (e : Fin 64 → EReal) (j : Fin 66) : EReal :=
  if h : j.val < 64 then e ⟨j.val, h⟩ else one

/-- A 66-entry row against an embedded row's 66-entry column. -/
def kscore (one : EReal) (a : Fin 66 → EReal) (e : Fin 64 → EReal) : EReal :=
  ∑ j : Fin 66, a j * eaug one e j

/-- One block's share: over its 16384 rows, the least score over the 1024 rows of `A`, plus the row's squared length. -/
def partialSum (one : EReal) (A : Fin 1024 → Fin 66 → EReal) (blk : Fin 16384 → Fin 64 → EReal) : EReal :=
  ∑ n : Fin 16384, ((Finset.univ.inf fun k : Fin 1024 => kscore one (A k) (blk n)) + sqn (blk n))

/-- Block `t` of the 65536 rows: rows `16384 t + n`. -/
def block (e : Fin 65536 → Fin 64 → EReal) (t : Fin 4) (n : Fin 16384) : Fin 64 → EReal :=
  e ⟨16384 * t.val + n.val, by have := t.isLt; have := n.isLt; omega⟩

/-- The share of block `t` when the rows of `A` are the centers' 66-entry rows. -/
def share (m2 one : EReal) (e : Fin 65536 → Fin 64 → EReal) (c : Fin 1024 → Fin 64 → EReal) (t : Fin 4) : EReal :=
  partialSum one (fun k => caug m2 (c k)) (block e t)

/-- What the kernel accumulates: zero, then the four blocks' shares added in order. -/
def kernelTotal (m2 one : EReal) (e : Fin 65536 → Fin 64 → EReal) (c : Fin 1024 → Fin 64 → EReal) : EReal :=
  (((0 + share m2 one e c 0) + share m2 one e c 1) + share m2 one e c 2) + share m2 one e c 3

/-- What the reference sums: over the rows, the least over the centers of `(|e|² - two · ⟨e, c⟩) + |c|²`. -/
def refTotal (two : EReal) (e : Fin 65536 → Fin 64 → EReal) (c : Fin 1024 → Fin 64 → EReal) : EReal :=
  ∑ i : Fin 65536, Finset.univ.inf fun k : Fin 1024 => (sqn (e i) - two * dot (e i) (c k)) + sqn (c k)

end Cert.Spec

end
-- ==== Proof.PayloadReads.lean ====
/-
  The kernel body's array-valued intermediate values, read at an index, when every float is an extended real: the
  centers' 66-entry rows, the embedded block's 66-entry columns, and the four products of 256 center rows with the
  block, each entry of which is the sum over the 66 entries.
-/
import proofs.«159115_g395136991332_cont_8to1_b_1330_20_alg».proof.Proof.Gen.KernelIdeal.Skeleton
import proofs.«159115_g395136991332_cont_8to1_b_1330_20_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadReads

open Idealize.ShloMosaic Idealize.ShloMosaic.ValueIdx Cert.KernelIdeal Cert.KernelIdeal.Gen

/-- The column of row sums of squares, read at (k, 0): the squared length of row k. -/
theorem rowsq_apply (x1 : Vec Ideal S1024x64 .f32) (k : Fin 1024) (z : Fin 1) :
    shapeCast S1024x1 (multiReduction (F := Ideal) .add [1] S1024 (mulf x1 x1) 0x00000000#32 reduces_S1024x64_S1024 (.inl rfl) rfl)
        shapeCasts_S1024_S1024x1 (ix2 k z)
      = Cert.Spec.sqn (fun d => x1 (ix2 k d)) := by
  refine (shapeCast_apply _ shapeCasts_S1024_S1024x1 (ix2 k z) (ix1 k) ?_).trans ?_
  · rw [Shape.rowMajor_val_one, Shape.rowMajor_val_two]
    show k.val = k.val * 1 + z.val
    have := z.isLt
    omega
  · refine (Ideal.multiReduction_add_single (φ := .f32) (mulf x1 x1) 0x00000000#32 reduces_S1024x64_S1024 _ _ (ix1 k)).trans ?_
    unfold Cert.Spec.sqn
    refine Finset.sum_congr rfl fun d _ => ?_
    have e : reduces_S1024x64_S1024.lift (ix1 k) d = ix2 k d := funext fun a => match a with
      | ⟨0, _⟩ => rfl
      | ⟨1, _⟩ => rfl
    rw [e]
    rfl

/-- The three pieces laid side by side into a center's 66-entry row: the 64 scaled entries, the squared length, and
    the squared length less itself. -/
abbrev rowPieces (x1 : Vec Ideal S1024x64 .f32) : List ((s : Shape) × (s.Idx → Ideal .bf16)) :=
  [⟨S1024x64, truncf .bf16 (mulf (broadcast S1024x64 (Scalar.ofBits (F := Ideal) .f32 0xC0000000#32)) x1) bitsLt_bf16_f32⟩,
   ⟨S1024x1, truncf .bf16 (shapeCast S1024x1 (multiReduction (F := Ideal) .add [1] S1024 (mulf x1 x1) 0x00000000#32 reduces_S1024x64_S1024 (.inl rfl) rfl) shapeCasts_S1024_S1024x1) bitsLt_bf16_f32⟩,
   ⟨S1024x1, truncf .bf16 (subf
      (shapeCast S1024x1 (multiReduction (F := Ideal) .add [1] S1024 (mulf x1 x1) 0x00000000#32 reduces_S1024x64_S1024 (.inl rfl) rfl) shapeCasts_S1024_S1024x1)
      (shapeCast S1024x1 (multiReduction (F := Ideal) .add [1] S1024 (mulf x1 x1) 0x00000000#32 reduces_S1024x64_S1024 (.inl rfl) rfl) shapeCasts_S1024_S1024x1))
      bitsLt_bf16_f32⟩]

/-- Row k of the scratch the first grid step builds is the center's 66-entry row. -/
theorem pay3_apply (x1 : Vec Ideal S1024x64 .f32) (k : Fin 1024) (j : Fin 66) :
    k0_pay3 (F := Ideal) x1 (ix2 k j) = Cert.Spec.caug (Ideal.ofBits .f32 0xC0000000#32) (fun d => x1 (ix2 k d)) j := by
  unfold k0_pay3 Cert.Spec.caug
  refine (congrFun (shapeCast_self _ shapeCasts_S1024x66_S1024x66) (ix2 k j)).trans ?_
  by_cases hj : j.val < 64
  · rw [dif_pos hj]
    refine (concatenate_apply_piece (1 : Fin S1024x66.rank) (rowPieces x1) concatenates_S1024x64_S1024x1_S1024x1_S1024x66_d1 (ix2 k j)
      0 (by show 0 < 3; omega) S1024x64 _ rfl rfl 0 rfl (ix2 k (⟨j.val, hj⟩ : Fin 64))
      (fun b hb => match b, hb with
        | ⟨0, _⟩, _ => rfl
        | ⟨1, _⟩, hb => absurd rfl hb)
      (by show 0 + j.val = j.val; omega)).trans ?_
    rfl
  · rw [dif_neg hj]
    by_cases hj2 : j.val = 64
    · rw [if_pos hj2]
      refine (concatenate_apply_piece (1 : Fin S1024x66.rank) (rowPieces x1) concatenates_S1024x64_S1024x1_S1024x1_S1024x66_d1 (ix2 k j)
        1 (by show 1 < 3; omega) S1024x1 _ rfl rfl 64 rfl (ix2 k (⟨0, by decide⟩ : Fin 1))
        (fun b hb => match b, hb with
          | ⟨0, _⟩, _ => rfl
          | ⟨1, _⟩, hb => absurd rfl hb)
        (by show 64 + 0 = j.val; omega)).trans ?_
      exact rowsq_apply x1 k _
    · rw [if_neg hj2]
      refine (concatenate_apply_piece (1 : Fin S1024x66.rank) (rowPieces x1) concatenates_S1024x64_S1024x1_S1024x1_S1024x66_d1 (ix2 k j)
        2 (by show 2 < 3; omega) S1024x1 _ rfl rfl 65 rfl (ix2 k (⟨0, by decide⟩ : Fin 1))
        (fun b hb => match b, hb with
          | ⟨0, _⟩, _ => rfl
          | ⟨1, _⟩, hb => absurd rfl hb)
        (by show 65 + 0 = j.val; have := j.isLt; omega)).trans ?_
      refine (subf_apply _ _ _).trans ?_
      rw [rowsq_apply x1 k _]

/-- Column n of the augmented block is the embedded row's 66-entry column (the block is transposed: entry (d, n)). -/
theorem pay5_apply (x0 : Vec Ideal S64x16384 .f32) (j : Fin 66) (n : Fin 16384) :
    k0_pay5 (F := Ideal) x0 (ix2 j n) = Cert.Spec.eaug (Ideal.ofBits .bf16 0x3F80#16) (fun d => x0 (ix2 d n)) j := by
  unfold k0_pay5 k0_pay4 Cert.Spec.eaug
  by_cases hj : j.val < 64
  · rw [dif_pos hj]
    refine (concatenate_pair_apply_left (0 : Fin S66x16384.rank) _ _ concatenates_S64x16384_S2x16384_S66x16384_d0
      (ix2 j n) rfl (ix2 (⟨j.val, hj⟩ : Fin 64) n) (fun b => match b with
        | ⟨0, _⟩ => rfl
        | ⟨1, _⟩ => rfl)).trans ?_
    rw [truncf_apply, shapeCast_self]
  · rw [dif_neg hj]
    exact concatenate_pair_apply_right (0 : Fin S66x16384.rank) _ _ concatenates_S64x16384_S2x16384_S66x16384_d0
      (ix2 j n) rfl rfl (ix2 (⟨j.val - 64, by have := j.isLt; omega⟩ : Fin 2) n) (fun b hb => match b, hb with
        | ⟨0, _⟩, hb => absurd rfl hb
        | ⟨1, _⟩, _ => rfl)
      (by show j.val - 64 + 64 = j.val; omega)

/-- The left operand's index of the 256 × 66 by 66 × 16384 product at output index `i` and contraction index `q`:
    row `i 0`, … -/
theorem lhs66_0 (i : S256x16384.Idx) (q : dot_S256x66_S66x16384_S256x16384_1_0_0_1_n_n.contr.Idx) :
    (dot_S256x66_S66x16384_S256x16384_1_0_0_1_n_n.lhsIdx i q 0).val = (i 0).val := by
  unfold DotDims.lhsIdx
  rw [dif_neg (show ¬(0 : Fin S256x66.rank) ∈ dot_S256x66_S66x16384_S256x16384_1_0_0_1_n_n.lhsBatch by decide), dif_pos (show (0 : Fin S256x66.rank) ∈ dot_S256x66_S66x16384_S256x16384_1_0_0_1_n_n.lhsNonContracting by decide)]
  rfl
/-- … column the contraction coordinate. -/
theorem lhs66_1 (i : S256x16384.Idx) (q : dot_S256x66_S66x16384_S256x16384_1_0_0_1_n_n.contr.Idx) :
    (dot_S256x66_S66x16384_S256x16384_1_0_0_1_n_n.lhsIdx i q 1).val = (q ⟨0, by decide⟩).val :=
  dot_S256x66_S66x16384_S256x16384_1_0_0_1_n_n.lhsIdx_val_of_single rfl i q
/-- The right operand's index: row the contraction coordinate, … -/
theorem rhs66_0 (i : S256x16384.Idx) (q : dot_S256x66_S66x16384_S256x16384_1_0_0_1_n_n.contr.Idx) :
    (dot_S256x66_S66x16384_S256x16384_1_0_0_1_n_n.rhsIdx i q 0).val = (q ⟨0, by decide⟩).val :=
  dot_S256x66_S66x16384_S256x16384_1_0_0_1_n_n.rhsIdx_val_of_single rfl i q
/-- … column `i 1`. -/
theorem rhs66_1 (i : S256x16384.Idx) (q : dot_S256x66_S66x16384_S256x16384_1_0_0_1_n_n.contr.Idx) :
    (dot_S256x66_S66x16384_S256x16384_1_0_0_1_n_n.rhsIdx i q 1).val = (i 1).val := by
  unfold DotDims.rhsIdx
  rw [dif_neg (show ¬(1 : Fin S66x16384.rank) ∈ dot_S256x66_S66x16384_S256x16384_1_0_0_1_n_n.rhsBatch by decide), dif_pos (show (1 : Fin S66x16384.rank) ∈ dot_S256x66_S66x16384_S256x16384_1_0_0_1_n_n.rhsNonContracting by decide)]
  rfl

/-- A product of a 256 × 66 array with a 66 × 16384 array, accumulated from zero, read at (r, n): the sum over the
    66 entries of row r of the left array against column n of the right one. -/
theorem matmul_apply66 (a : FVec Ideal S256x66 .bf16) (y : FVec Ideal S66x16384 .bf16) (r : Fin 256) (n : Fin 16384) :
    matmul dot_S256x66_S66x16384_S256x16384_1_0_0_1_n_n none a y (constant (F := Ideal) S256x16384 .f32 0x00000000#32) (ix2 r n)
      = ∑ j : Fin 66, (a (ix2 r j) : EReal) * (y (ix2 j n) : EReal) := by
  refine (Ideal.matmul_constant_zero_apply dot_S256x66_S66x16384_S256x16384_1_0_0_1_n_n none a y (ix2 r n)).trans ?_
  rw [← Equiv.sum_comp (contrEquiv1 dot_S256x66_S66x16384_S256x16384_1_0_0_1_n_n 66 rfl rfl).symm]
  refine Finset.sum_congr rfl fun k _ => ?_
  have hk := contrEquiv1_symm_val dot_S256x66_S66x16384_S256x16384_1_0_0_1_n_n 66 rfl rfl k
  have el : dot_S256x66_S66x16384_S256x16384_1_0_0_1_n_n.lhsIdx (ix2 r n)
      ((contrEquiv1 dot_S256x66_S66x16384_S256x16384_1_0_0_1_n_n 66 rfl rfl).symm k) = ix2 r k :=
    funext fun b => Fin.ext (by
      match b with
      | ⟨0, _⟩ => exact lhs66_0 _ _
      | ⟨1, _⟩ => exact (lhs66_1 _ _).trans hk)
  have er : dot_S256x66_S66x16384_S256x16384_1_0_0_1_n_n.rhsIdx (ix2 r n)
      ((contrEquiv1 dot_S256x66_S66x16384_S256x16384_1_0_0_1_n_n 66 rfl rfl).symm k) = ix2 k n :=
    funext fun b => Fin.ext (by
      match b with
      | ⟨0, _⟩ => exact (rhs66_0 _ _).trans hk
      | ⟨1, _⟩ => exact rhs66_1 _ _)
  rw [el, er]

/-- The four products of 256 center rows with the augmented block, at (r, n): the sum over the 66 entries. -/
theorem pay6_apply (x0 : Vec Ideal S64x16384 .f32) (xs0 : Vec Ideal S1024x66 .bf16) (r : Fin 256) (n : Fin 16384) :
    k0_pay6 (F := Ideal) x0 xs0 (ix2 r n)
      = ∑ j : Fin 66, (xs0 (ix2 (⟨r.val, by have := r.isLt; omega⟩ : Fin 1024) j) : EReal) * (k0_pay5 (F := Ideal) x0 (ix2 j n) : EReal) := by
  unfold k0_pay6
  refine (matmul_apply66 _ _ r n).trans ?_
  refine Finset.sum_congr rfl fun j _ => ?_
  refine congrArg (fun z : EReal => z * (k0_pay5 (F := Ideal) x0 (ix2 j n) : EReal)) ?_
  exact extractStridedSlice_apply ![0, 0] xs0 slices_S1024x66_o0_0_S256x66 (ix2 r j) (ix2 (⟨r.val, by have := r.isLt; omega⟩ : Fin 1024) j)
    (fun a => match a with
      | ⟨0, _⟩ => by show r.val = 0 + r.val; omega
      | ⟨1, _⟩ => by show j.val = 0 + j.val; omega)

theorem pay33_apply (v7 : FVec Ideal S66x16384 .bf16) (xs0 : Vec Ideal S1024x66 .bf16) (r : Fin 256) (n : Fin 16384) :
    k0_pay33 (F := Ideal) v7 xs0 (ix2 r n)
      = ∑ j : Fin 66, (xs0 (ix2 (⟨256 + r.val, by have := r.isLt; omega⟩ : Fin 1024) j) : EReal) * (v7 (ix2 j n) : EReal) := by
  unfold k0_pay33
  refine (matmul_apply66 _ _ r n).trans ?_
  refine Finset.sum_congr rfl fun j _ => ?_
  refine congrArg (fun z : EReal => z * (v7 (ix2 j n) : EReal)) ?_
  exact extractStridedSlice_apply ![256, 0] xs0 slices_S1024x66_o256_0_S256x66 (ix2 r j) (ix2 (⟨256 + r.val, by have := r.isLt; omega⟩ : Fin 1024) j)
    (fun a => match a with
      | ⟨0, _⟩ => by show 256 + r.val = 256 + r.val; omega
      | ⟨1, _⟩ => by show j.val = 0 + j.val; omega)

theorem pay66_apply (v7 : FVec Ideal S66x16384 .bf16) (xs0 : Vec Ideal S1024x66 .bf16) (r : Fin 256) (n : Fin 16384) :
    k0_pay66 (F := Ideal) v7 xs0 (ix2 r n)
      = ∑ j : Fin 66, (xs0 (ix2 (⟨512 + r.val, by have := r.isLt; omega⟩ : Fin 1024) j) : EReal) * (v7 (ix2 j n) : EReal) := by
  unfold k0_pay66
  refine (matmul_apply66 _ _ r n).trans ?_
  refine Finset.sum_congr rfl fun j _ => ?_
  refine congrArg (fun z : EReal => z * (v7 (ix2 j n) : EReal)) ?_
  exact extractStridedSlice_apply ![512, 0] xs0 slices_S1024x66_o512_0_S256x66 (ix2 r j) (ix2 (⟨512 + r.val, by have := r.isLt; omega⟩ : Fin 1024) j)
    (fun a => match a with
      | ⟨0, _⟩ => by show 512 + r.val = 512 + r.val; omega
      | ⟨1, _⟩ => by show j.val = 0 + j.val; omega)

theorem pay94_apply (v7 : FVec Ideal S66x16384 .bf16) (xs0 : Vec Ideal S1024x66 .bf16) (r : Fin 256) (n : Fin 16384) :
    k0_pay94 (F := Ideal) v7 xs0 (ix2 r n)
      = ∑ j : Fin 66, (xs0 (ix2 (⟨768 + r.val, by have := r.isLt; omega⟩ : Fin 1024) j) : EReal) * (v7 (ix2 j n) : EReal) := by
  unfold k0_pay94
  refine (matmul_apply66 _ _ r n).trans ?_
  refine Finset.sum_congr rfl fun j _ => ?_
  refine congrArg (fun z : EReal => z * (v7 (ix2 j n) : EReal)) ?_
  exact extractStridedSlice_apply ![768, 0] xs0 slices_S1024x66_o768_0_S256x66 (ix2 r j) (ix2 (⟨768 + r.val, by have := r.isLt; omega⟩ : Fin 1024) j)
    (fun a => match a with
      | ⟨0, _⟩ => by show 768 + r.val = 768 + r.val; omega
      | ⟨1, _⟩ => by show j.val = 0 + j.val; omega)

end Cert.KernelIdeal.PayloadReads

end
-- ==== Proof.ScoreRows.lean ====
/-
  Every entry of the 1024 × 16384 score array is the specification's score: center row k's 66 entries against the
  66-entry column of embedded row n. (The four products hold center rows 0–255, 256–511, 512–767, 768–1023.)
-/
import proofs.«159115_g395136991332_cont_8to1_b_1330_20_alg».proof.Proof.PayloadReads
import proofs.«159115_g395136991332_cont_8to1_b_1330_20_alg».proof.Proof.StepTerm
import proofs.«159115_g395136991332_cont_8to1_b_1330_20_alg».proof.Proof.Spec

noncomputable section

namespace Cert.KernelIdeal.ScoreRows

open Idealize.ShloMosaic Idealize.ShloMosaic.ValueIdx Cert.KernelIdeal Cert.KernelIdeal.Gen Cert.KernelIdeal.Loss
open Cert.KernelIdeal.PayloadReads

/-- Entry (k, n) of the score array is row k of the stored rows against column n of the augmented block. -/
theorem chunkRow_eq (x0 : Vec Ideal S64x16384 .f32) (xs0 : Vec Ideal S1024x66 .bf16) (k : Fin 1024) (n : Fin 16384) :
    chunkRow x0 xs0 k n
      = Cert.Spec.kscore (Ideal.ofBits .bf16 0x3F80#16) (fun j => xs0 (ix2 k j)) (fun d => x0 (ix2 d n)) := by
  unfold chunkRow Cert.Spec.kscore
  have hk := k.isLt
  by_cases h0 : k.val < 256
  · rw [dif_pos h0, pay6_apply]
    refine Finset.sum_congr rfl fun j _ => ?_
    rw [pay5_apply]
  · rw [dif_neg h0]
    by_cases h1 : k.val < 512
    · rw [dif_pos h1, pay33_apply]
      refine Finset.sum_congr rfl fun j _ => ?_
      rw [pay5_apply]
      have e : (⟨256 + (k.val - 256), by omega⟩ : Fin 1024) = k := Fin.ext (by show 256 + (k.val - 256) = k.val; omega)
      exact congrArg (fun q : Fin 1024 => (xs0 (ix2 q j) : EReal) * _) e
    · rw [dif_neg h1]
      by_cases h2 : k.val < 768
      · rw [dif_pos h2, pay66_apply]
        refine Finset.sum_congr rfl fun j _ => ?_
        rw [pay5_apply]
        have e : (⟨512 + (k.val - 512), by omega⟩ : Fin 1024) = k := Fin.ext (by show 512 + (k.val - 512) = k.val; omega)
        exact congrArg (fun q : Fin 1024 => (xs0 (ix2 q j) : EReal) * _) e
      · rw [dif_neg h2, pay94_apply]
        refine Finset.sum_congr rfl fun j _ => ?_
        rw [pay5_apply]
        have e : (⟨768 + (k.val - 768), by omega⟩ : Fin 1024) = k := Fin.ext (by show 768 + (k.val - 768) = k.val; omega)
        exact congrArg (fun q : Fin 1024 => (xs0 (ix2 q j) : EReal) * _) e

end Cert.KernelIdeal.ScoreRows

end
-- ==== Proof.Finite.lean ====
/-
  The float literals the two programs spell, as extended reals (-2, 2, the bf16 unit, +∞), and what the precondition
  says: each argument array's absolute values lie below +∞ entry by entry, so every entry of both arrays is the
  embedding of a real number.
-/
import proofs.«159115_g395136991332_cont_8to1_b_1330_20_alg».proof.Pre_finite_inputs
import proofs.«159115_g395136991332_cont_8to1_b_1330_20_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Consts

open Idealize.ShloMosaic

/-- The f32 pattern of `-2.0` (sign set, exponent field 128, zero fraction) denotes the real `-2`. -/
theorem ofBits_neg_two : Ideal.ofBits .f32 0xC0000000#32 = ((-2 : ℝ) : EReal) := by
  simp [Ideal.ofBits, Ideal.ieee, -EReal.coe_mul]; norm_num

/-- The f32 pattern of `2.0` (exponent field 128, zero fraction) denotes the real `2`. -/
theorem ofBits_two : Ideal.ofBits .f32 0x40000000#32 = ((2 : ℝ) : EReal) := by
  simp [Ideal.ofBits, Ideal.ieee, -EReal.coe_mul]; norm_num

/-- The bf16 pattern of `1.0` (exponent field 127, zero fraction) denotes `1`. -/
theorem ofBits_one_bf16 : Ideal.ofBits .bf16 0x3F80#16 = (1 : EReal) := by
  simp [Ideal.ofBits, Ideal.ieee, -EReal.coe_mul]; norm_num

/-- The f32 pattern with an all-ones exponent, zero fraction and clear sign denotes `+∞`. -/
theorem ofBits_inf : Ideal.ofBits .f32 0x7F800000#32 = (⊤ : EReal) := by
  simp [Ideal.ofBits, Ideal.ieee]

end Cert.Consts

namespace Cert.Finite

open Idealize.ShloMosaic Idealize.ShloMosaic.ValueIdx

/-- The rank-0 shape has one index: the function on the empty set of axes. -/
instance : Subsingleton Cert.Pre_finite_inputs.S_.Idx := ⟨fun a b => funext fun d => d.elim0⟩

/-- An extended real whose absolute value `max x (-x)` lies strictly below `+∞` is neither infinity,
    so it is the embedding of a real: at `⊥` and at `⊤` the absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One element of the precondition's test: the ordered comparison `|x| < +∞`, `+∞` given as its f32
    pattern, answers `1` only at a real. -/
theorem real_of_cmp (x : EReal)
    (h : Ideal.cmp .olt (max x (-x)) (Ideal.ofBits .f32 0x7F800000#32) = 1#1) : ∃ r : ℝ, x = (r : EReal) := by
  rw [Cert.Consts.ofBits_inf] at h
  refine real_of_abs_lt_top x ?_
  by_contra hn
  simp [Ideal.cmp, hn] at h

/-- Under the precondition "every input is finite" every entry of both arrays is the embedding of a real.
    The precondition is the conjunction, one conjunct per array, of the reduction by `and` over both axes
    of the elementwise test `|x| < +∞`; a conjunction of one-bit words is `1` when both are, a reduction by `and` over every axis
    that is `1` met a `1` at every index, and the test at an index is `real_of_cmp`. -/
theorem real_of_pre [Cert.Pre_finite_inputs.Facts]
    (x0 : FVec Ideal Cert.Pre_finite_inputs.S65536x64 .f32) (x1 : FVec Ideal Cert.Pre_finite_inputs.S1024x64 .f32)
    (h : Cert.Pre_finite_inputs.fn (F := Ideal) x0 x1 = fun _ => 1#1) :
    (∃ e' : Fin 65536 → Fin 64 → ℝ, ∀ r d, x0 (ix2 r d) = ((e' r d : ℝ) : EReal))
    ∧ (∃ c' : Fin 1024 → Fin 64 → ℝ, ∀ k d, x1 (ix2 k d) = ((c' k d : ℝ) : EReal)) := by
  have e := congrFun h ValueIdx.ix0
  dsimp only [Cert.Pre_finite_inputs.fn] at e
  obtain ⟨h0, h1⟩ := IntOp.andi_eq_one.1 e
  have a0 : ∀ r d, ∃ v : ℝ, x0 (ix2 r d) = (v : EReal) := fun r d =>
    real_of_cmp _ (Host.reduce_andi_all _ _ _ _ _ h0 (ix2 r d))
  have a1 : ∀ k d, ∃ v : ℝ, x1 (ix2 k d) = (v : EReal) := fun k d =>
    real_of_cmp _ (Host.reduce_andi_all _ _ _ _ _ h1 (ix2 k d))
  choose e' he' using a0
  choose c' hc' using a1
  exact ⟨⟨e', he'⟩, ⟨c', hc'⟩⟩

end Cert.Finite

end
-- ==== Proof.MinTree.lean ====
/-
  The block's share read at its one index: the sum over the 16384 columns of the least score over all 1024 center rows
  plus the column's squared length.

  The body folds each of the four 256 × 16384 products eight rows at a time: the 32 slices of eight rows are joined pair
  by pair with the pointwise minimum, the four results are joined, and the eight remaining rows are reduced to one. A
  minimum is carried here by its lower bounds: `y ≤ min a b ↔ y ≤ a ∧ y ≤ b`, so a lower bound of the joined array at
  (s, n) is a lower bound of every slice at (s, n), and a lower bound of the column's minimum is a lower bound of every
  entry (k, n) of the 1024 × 16384 array of scores; two extended reals with the same lower bounds are equal.
-/
import proofs.«159115_g395136991332_cont_8to1_b_1330_20_alg».proof.Proof.StepTerm
import proofs.«159115_g395136991332_cont_8to1_b_1330_20_alg».proof.Proof.Finite
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.MinTree

open Idealize.ShloMosaic Idealize.ShloMosaic.ValueIdx Cert.KernelIdeal Cert.KernelIdeal.Gen Cert.KernelIdeal.Loss

/-! ## The tail: from the joined 8 × 16384 array to the one number -/

/-- What the body does after the joins, as a function of the block `v4` and the joined array `M`. -/
def tailVal (v4 : FVec Ideal S64x16384 .f32) (M : FVec Ideal S8x16384 .f32) : FVec Ideal S1x1 .f32 :=
  broadcast S1x1 (extractAt ![0, 0, 0] (shapeCast S1x1x1 (multiReduction (F := Ideal) .add [1, 2] S1
    (shapeCast S1x1x16384 (addf
      (shapeCast S1x16384 (multiReduction (F := Ideal) .minimumf [0] S16384 M 0x7F800000#32 reduces_S8x16384_S16384 (.inl rfl) rfl)
        shapeCasts_S16384_S1x16384)
      (shapeCast S1x16384 (multiReduction (F := Ideal) .add [0] S16384 (mulf v4 v4) 0x00000000#32 reduces_S64x16384_S16384 (.inl rfl) rfl)
        shapeCasts_S16384_S1x16384)) shapeCasts_S1x16384_S1x1x16384)
    0x00000000#32 reduces_S1x1x16384_S1 (.inl rfl) rfl) shapeCasts_S1_S1x1x1) inpos_S1x1x1_p0_0_0)

/-- The minimum over the eight rows of column `n`. -/
theorem colMin_apply (M : FVec Ideal S8x16384 .f32) (n : Fin 16384) :
    multiReduction (F := Ideal) .minimumf [0] S16384 M 0x7F800000#32 reduces_S8x16384_S16384 (.inl rfl) rfl (ix1 n)
      = Finset.univ.inf fun s : Fin 8 => (M (ix2 s n) : EReal) := by
  refine (multiReduction_minimumf_eq_fold M _ reduces_S8x16384_S16384 _ _ (ix1 n)).trans ?_
  refine (Shape.Reduces.fold_filter_drop_single reduces_S8x16384_S16384 _ _ M (ix1 n)).trans ?_
  have hl : ∀ s : Fin 8, reduces_S8x16384_S16384.lift (ix1 n) s = ix2 s n := fun s =>
    funext fun a => Fin.ext (by match a with | ⟨0, _⟩ => rfl | ⟨1, _⟩ => rfl)
  show Finset.fold (fun a b : EReal => min a b) (Ideal.ofBits .f32 0x7F800000#32)
    (fun s : Fin 8 => M (reduces_S8x16384_S16384.lift (ix1 n) s)) Finset.univ = _
  rw [Cert.Consts.ofBits_inf]
  simp only [hl]
  rfl

/-- The sum of squares over the 64 rows of column `n`. -/
theorem colSq_apply (v4 : FVec Ideal S64x16384 .f32) (n : Fin 16384) :
    multiReduction (F := Ideal) .add [0] S16384 (mulf v4 v4) 0x00000000#32 reduces_S64x16384_S16384 (.inl rfl) rfl (ix1 n)
      = ∑ d : Fin 64, (v4 (ix2 d n) : EReal) * (v4 (ix2 d n) : EReal) := by
  refine (Ideal.multiReduction_add_single (mulf v4 v4) _ reduces_S64x16384_S16384 _ _ (ix1 n)).trans ?_
  have hl : ∀ d : Fin 64, reduces_S64x16384_S16384.lift (ix1 n) d = ix2 d n := fun d =>
    funext fun a => Fin.ext (by match a with | ⟨0, _⟩ => rfl | ⟨1, _⟩ => rfl)
  refine Finset.sum_congr rfl fun d _ => ?_
  show v4 (reduces_S64x16384_S16384.lift (ix1 n) d) * v4 (reduces_S64x16384_S16384.lift (ix1 n) d) = _
  rw [hl d]

/-- The indices of a 1 × 1 × 16384 array are its 16384 columns. -/
def colEquiv : Fin 16384 ≃ S1x1x16384.Idx where
  toFun n := ix3 (0 : Fin 1) (0 : Fin 1) n
  invFun i := i 2
  left_inv _ := rfl
  right_inv i := funext fun a => Fin.ext (by
    match a with
    | ⟨0, _⟩ => have : (i 0).val < 1 := (i 0).isLt; show 0 = (i 0).val; omega
    | ⟨1, _⟩ => have : (i 1).val < 1 := (i 1).isLt; show 0 = (i 1).val; omega
    | ⟨2, _⟩ => rfl)

/-- The tail at its one index: the sum over the columns of the column's minimum plus the column's squared length. -/
theorem tailVal_apply (v4 : FVec Ideal S64x16384 .f32) (M : FVec Ideal S8x16384 .f32) :
    tailVal v4 M (ix2 (0 : Fin 1) (0 : Fin 1))
      = ∑ n : Fin 16384, ((Finset.univ.inf fun s : Fin 8 => (M (ix2 s n) : EReal))
          + ∑ d : Fin 64, (v4 (ix2 d n) : EReal) * (v4 (ix2 d n) : EReal)) := by
  unfold tailVal
  rw [broadcast_apply]
  unfold extractAt
  refine (shapeCast_apply _ _ _ (ix1 (0 : Fin 1)) ?_).trans ?_
  · rw [Shape.rowMajor_val_one, Shape.rowMajor_val_three]; rfl
  refine (Ideal.multiReduction_add_total _ _ reduces_S1x1x16384_S1
    (fun b => by match b with | ⟨0, _⟩ => rfl) _ _ _).trans ?_
  refine (Equiv.sum_comp colEquiv _).symm.trans ?_
  refine Finset.sum_congr rfl fun n _ => ?_
  refine (shapeCast_ab_1ab_apply _ _ (0 : Fin 1) (0 : Fin 1) n).trans ?_
  exact congrArg₂ (· + ·) ((shapeCast_a_1a_apply _ _ (0 : Fin 1) n).trans (colMin_apply M n))
    ((shapeCast_a_1a_apply _ _ (0 : Fin 1) n).trans (colSq_apply v4 n))

/-! ## The slices of eight rows -/

/-- Rows `8 t … 8 t + 7` of a 256 × 16384 array form an 8 × 16384 block, for every `t < 32`. -/
theorem sl_slices (t : Fin 32) : S256x16384.Slices ![8 * t.val, 0] S8x16384 :=
  ⟨rfl, fun a => by
    match a with
    | ⟨0, _⟩ => show 8 * t.val + 8 ≤ 256; omega
    | ⟨1, _⟩ => show 0 + 16384 ≤ 16384; omega⟩

/-- Slice `t` of a 256 × 16384 array: its rows `8 t … 8 t + 7`. -/
def sl (A : FVec Ideal S256x16384 .f32) (t : Fin 32) : FVec Ideal S8x16384 .f32 :=
  extractStridedSlice S8x16384 ![8 * t.val, 0] A (sl_slices t)

/-- Slice `t` at (s, n) is the array at (8 t + s, n). -/
theorem sl_apply (A : FVec Ideal S256x16384 .f32) (t : Fin 32) (s : Fin 8) (n : Fin 16384) :
    sl A t (ix2 s n) = A (ix2 (⟨8 * t.val + s.val, by omega⟩ : Fin 256) n) :=
  slice2_axis0_apply (8 * t.val) A (sl_slices t) s n _ rfl

/-! The printed slices, by their literal offsets, are these. -/
theorem slice_o0 (A : FVec Ideal S256x16384 .f32) (h : S256x16384.Slices ![0, 0] S8x16384) :
    extractStridedSlice S8x16384 ![0, 0] A h = sl A 0 := rfl
theorem slice_o8 (A : FVec Ideal S256x16384 .f32) (h : S256x16384.Slices ![8, 0] S8x16384) :
    extractStridedSlice S8x16384 ![8, 0] A h = sl A 1 := rfl
theorem slice_o16 (A : FVec Ideal S256x16384 .f32) (h : S256x16384.Slices ![16, 0] S8x16384) :
    extractStridedSlice S8x16384 ![16, 0] A h = sl A 2 := rfl
theorem slice_o24 (A : FVec Ideal S256x16384 .f32) (h : S256x16384.Slices ![24, 0] S8x16384) :
    extractStridedSlice S8x16384 ![24, 0] A h = sl A 3 := rfl
theorem slice_o32 (A : FVec Ideal S256x16384 .f32) (h : S256x16384.Slices ![32, 0] S8x16384) :
    extractStridedSlice S8x16384 ![32, 0] A h = sl A 4 := rfl
theorem slice_o40 (A : FVec Ideal S256x16384 .f32) (h : S256x16384.Slices ![40, 0] S8x16384) :
    extractStridedSlice S8x16384 ![40, 0] A h = sl A 5 := rfl
theorem slice_o48 (A : FVec Ideal S256x16384 .f32) (h : S256x16384.Slices ![48, 0] S8x16384) :
    extractStridedSlice S8x16384 ![48, 0] A h = sl A 6 := rfl
theorem slice_o56 (A : FVec Ideal S256x16384 .f32) (h : S256x16384.Slices ![56, 0] S8x16384) :
    extractStridedSlice S8x16384 ![56, 0] A h = sl A 7 := rfl
theorem slice_o64 (A : FVec Ideal S256x16384 .f32) (h : S256x16384.Slices ![64, 0] S8x16384) :
    extractStridedSlice S8x16384 ![64, 0] A h = sl A 8 := rfl
theorem slice_o72 (A : FVec Ideal S256x16384 .f32) (h : S256x16384.Slices ![72, 0] S8x16384) :
    extractStridedSlice S8x16384 ![72, 0] A h = sl A 9 := rfl
theorem slice_o80 (A : FVec Ideal S256x16384 .f32) (h : S256x16384.Slices ![80, 0] S8x16384) :
    extractStridedSlice S8x16384 ![80, 0] A h = sl A 10 := rfl
theorem slice_o88 (A : FVec Ideal S256x16384 .f32) (h : S256x16384.Slices ![88, 0] S8x16384) :
    extractStridedSlice S8x16384 ![88, 0] A h = sl A 11 := rfl
theorem slice_o96 (A : FVec Ideal S256x16384 .f32) (h : S256x16384.Slices ![96, 0] S8x16384) :
    extractStridedSlice S8x16384 ![96, 0] A h = sl A 12 := rfl
theorem slice_o104 (A : FVec Ideal S256x16384 .f32) (h : S256x16384.Slices ![104, 0] S8x16384) :
    extractStridedSlice S8x16384 ![104, 0] A h = sl A 13 := rfl
theorem slice_o112 (A : FVec Ideal S256x16384 .f32) (h : S256x16384.Slices ![112, 0] S8x16384) :
    extractStridedSlice S8x16384 ![112, 0] A h = sl A 14 := rfl
theorem slice_o120 (A : FVec Ideal S256x16384 .f32) (h : S256x16384.Slices ![120, 0] S8x16384) :
    extractStridedSlice S8x16384 ![120, 0] A h = sl A 15 := rfl
theorem slice_o128 (A : FVec Ideal S256x16384 .f32) (h : S256x16384.Slices ![128, 0] S8x16384) :
    extractStridedSlice S8x16384 ![128, 0] A h = sl A 16 := rfl
theorem slice_o136 (A : FVec Ideal S256x16384 .f32) (h : S256x16384.Slices ![136, 0] S8x16384) :
    extractStridedSlice S8x16384 ![136, 0] A h = sl A 17 := rfl
theorem slice_o144 (A : FVec Ideal S256x16384 .f32) (h : S256x16384.Slices ![144, 0] S8x16384) :
    extractStridedSlice S8x16384 ![144, 0] A h = sl A 18 := rfl
theorem slice_o152 (A : FVec Ideal S256x16384 .f32) (h : S256x16384.Slices ![152, 0] S8x16384) :
    extractStridedSlice S8x16384 ![152, 0] A h = sl A 19 := rfl
theorem slice_o160 (A : FVec Ideal S256x16384 .f32) (h : S256x16384.Slices ![160, 0] S8x16384) :
    extractStridedSlice S8x16384 ![160, 0] A h = sl A 20 := rfl
theorem slice_o168 (A : FVec Ideal S256x16384 .f32) (h : S256x16384.Slices ![168, 0] S8x16384) :
    extractStridedSlice S8x16384 ![168, 0] A h = sl A 21 := rfl
theorem slice_o176 (A : FVec Ideal S256x16384 .f32) (h : S256x16384.Slices ![176, 0] S8x16384) :
    extractStridedSlice S8x16384 ![176, 0] A h = sl A 22 := rfl
theorem slice_o184 (A : FVec Ideal S256x16384 .f32) (h : S256x16384.Slices ![184, 0] S8x16384) :
    extractStridedSlice S8x16384 ![184, 0] A h = sl A 23 := rfl
theorem slice_o192 (A : FVec Ideal S256x16384 .f32) (h : S256x16384.Slices ![192, 0] S8x16384) :
    extractStridedSlice S8x16384 ![192, 0] A h = sl A 24 := rfl
theorem slice_o200 (A : FVec Ideal S256x16384 .f32) (h : S256x16384.Slices ![200, 0] S8x16384) :
    extractStridedSlice S8x16384 ![200, 0] A h = sl A 25 := rfl
theorem slice_o208 (A : FVec Ideal S256x16384 .f32) (h : S256x16384.Slices ![208, 0] S8x16384) :
    extractStridedSlice S8x16384 ![208, 0] A h = sl A 26 := rfl
theorem slice_o216 (A : FVec Ideal S256x16384 .f32) (h : S256x16384.Slices ![216, 0] S8x16384) :
    extractStridedSlice S8x16384 ![216, 0] A h = sl A 27 := rfl
theorem slice_o224 (A : FVec Ideal S256x16384 .f32) (h : S256x16384.Slices ![224, 0] S8x16384) :
    extractStridedSlice S8x16384 ![224, 0] A h = sl A 28 := rfl
theorem slice_o232 (A : FVec Ideal S256x16384 .f32) (h : S256x16384.Slices ![232, 0] S8x16384) :
    extractStridedSlice S8x16384 ![232, 0] A h = sl A 29 := rfl
theorem slice_o240 (A : FVec Ideal S256x16384 .f32) (h : S256x16384.Slices ![240, 0] S8x16384) :
    extractStridedSlice S8x16384 ![240, 0] A h = sl A 30 := rfl
theorem slice_o248 (A : FVec Ideal S256x16384 .f32) (h : S256x16384.Slices ![248, 0] S8x16384) :
    extractStridedSlice S8x16384 ![248, 0] A h = sl A 31 := rfl

/-- A statement about all 32 slices is the conjunction of its 32 instances. -/
theorem forall_fin32 (P : Fin 32 → Prop) :
    (∀ t, P t) ↔ (P 0 ∧ P 1 ∧ P 2 ∧ P 3 ∧ P 4 ∧ P 5 ∧ P 6 ∧ P 7 ∧ P 8 ∧ P 9 ∧ P 10 ∧ P 11 ∧ P 12 ∧ P 13 ∧ P 14 ∧ P 15 ∧ P 16 ∧ P 17 ∧ P 18 ∧ P 19 ∧ P 20 ∧ P 21 ∧ P 22 ∧ P 23 ∧ P 24 ∧ P 25 ∧ P 26 ∧ P 27 ∧ P 28 ∧ P 29 ∧ P 30 ∧ P 31) :=
  ⟨fun h => ⟨h 0, h 1, h 2, h 3, h 4, h 5, h 6, h 7, h 8, h 9, h 10, h 11, h 12, h 13, h 14, h 15, h 16, h 17, h 18, h 19, h 20, h 21, h 22, h 23, h 24, h 25, h 26, h 27, h 28, h 29, h 30, h 31⟩,
   fun ⟨h0, h1, h2, h3, h4, h5, h6, h7, h8, h9, h10, h11, h12, h13, h14, h15, h16, h17, h18, h19, h20, h21, h22, h23, h24, h25, h26, h27, h28, h29, h30, h31⟩ t => by
    match t with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
    | ⟨12, _⟩ => exact h12
    | ⟨13, _⟩ => exact h13
    | ⟨14, _⟩ => exact h14
    | ⟨15, _⟩ => exact h15
    | ⟨16, _⟩ => exact h16
    | ⟨17, _⟩ => exact h17
    | ⟨18, _⟩ => exact h18
    | ⟨19, _⟩ => exact h19
    | ⟨20, _⟩ => exact h20
    | ⟨21, _⟩ => exact h21
    | ⟨22, _⟩ => exact h22
    | ⟨23, _⟩ => exact h23
    | ⟨24, _⟩ => exact h24
    | ⟨25, _⟩ => exact h25
    | ⟨26, _⟩ => exact h26
    | ⟨27, _⟩ => exact h27
    | ⟨28, _⟩ => exact h28
    | ⟨29, _⟩ => exact h29
    | ⟨30, _⟩ => exact h30
    | ⟨31, _⟩ => exact h31
    | ⟨n + 32, h⟩ => exact absurd h (by omega)⟩

/-! ## The joined array -/

/-- The block's share is the tail of a joined array whose lower bounds at an index are the common lower bounds of the
    32 slices of each of the four products at that index. -/
theorem stepVal_split (x0 : Vec Ideal S64x16384 .f32) (xs0 : Vec Ideal S1024x66 .bf16) :
    ∃ M : FVec Ideal S8x16384 .f32, stepVal (F := Ideal) x0 xs0 = tailVal (k0_pay4 x0) M ∧
      ∀ (y : EReal) (j : S8x16384.Idx), y ≤ M j ↔
        ((∀ t : Fin 32, y ≤ sl (k0_pay6 (F := Ideal) x0 xs0) t j)
          ∧ (∀ t : Fin 32, y ≤ sl (k0_pay33 (F := Ideal) (k0_pay5 x0) xs0) t j)
          ∧ (∀ t : Fin 32, y ≤ sl (k0_pay66 (F := Ideal) (k0_pay5 x0) xs0) t j)
          ∧ (∀ t : Fin 32, y ≤ sl (k0_pay94 (F := Ideal) (k0_pay5 x0) xs0) t j)) :=
  ⟨_, rfl, fun y j => by
    simp only [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113,
      minimumf_apply, le_min_iff, slice_o0, slice_o8, slice_o16, slice_o24, slice_o32, slice_o40, slice_o48, slice_o56, slice_o64, slice_o72, slice_o80, slice_o88, slice_o96, slice_o104, slice_o112, slice_o120, slice_o128, slice_o136, slice_o144, slice_o152, slice_o160, slice_o168, slice_o176, slice_o184, slice_o192, slice_o200, slice_o208, slice_o216, slice_o224, slice_o232, slice_o240, slice_o248, forall_fin32]
    constructor <;> intro h <;> simp only [h, and_self]⟩

/-! ## From slices to rows, and from the four products' rows to the 1024 center rows -/

/-- A lower bound of every slice of `A` in column `n` is a lower bound of every row of `A` in column `n`: row `r` is
    row `r % 8` of slice `r / 8`. -/
theorem forall_sl_iff (A : FVec Ideal S256x16384 .f32) (y : EReal) (n : Fin 16384) :
    (∀ (s : Fin 8) (t : Fin 32), y ≤ sl A t (ix2 s n)) ↔ ∀ r : Fin 256, y ≤ A (ix2 r n) := by
  constructor
  · intro H r
    have hr := r.isLt
    have h := H ⟨r.val % 8, by omega⟩ ⟨r.val / 8, by omega⟩
    rw [sl_apply] at h
    exact h.trans_eq (congrArg (fun r' : Fin 256 => (A (ix2 r' n) : EReal))
      (Fin.ext (by show 8 * (r.val / 8) + r.val % 8 = r.val; omega)))
  · intro H s t
    rw [sl_apply]
    exact H _

/-- A lower bound of the scores of all 1024 center rows in column `n` is a lower bound of the 256 rows of each of the
    four products in column `n`: center row `k` is row `k % 256` of product `k / 256`. -/
theorem forall_chunkRow_iff (x0 : Vec Ideal S64x16384 .f32) (xs0 : Vec Ideal S1024x66 .bf16) (y : EReal) (n : Fin 16384) :
    (∀ k : Fin 1024, y ≤ chunkRow x0 xs0 k n) ↔
      ((∀ r : Fin 256, y ≤ k0_pay6 (F := Ideal) x0 xs0 (ix2 r n))
        ∧ (∀ r : Fin 256, y ≤ k0_pay33 (F := Ideal) (k0_pay5 x0) xs0 (ix2 r n))
        ∧ (∀ r : Fin 256, y ≤ k0_pay66 (F := Ideal) (k0_pay5 x0) xs0 (ix2 r n))
        ∧ (∀ r : Fin 256, y ≤ k0_pay94 (F := Ideal) (k0_pay5 x0) xs0 (ix2 r n))) := by
  constructor
  · intro K
    refine ⟨fun r => ?_, fun r => ?_, fun r => ?_, fun r => ?_⟩
    · have hr := r.isLt
      have h := K ⟨r.val, by omega⟩
      unfold chunkRow at h
      rw [dif_pos (show r.val < 256 from hr)] at h
      exact h
    · have hr := r.isLt
      have h := K ⟨256 + r.val, by omega⟩
      unfold chunkRow at h
      rw [dif_neg (show ¬ 256 + r.val < 256 by omega), dif_pos (show 256 + r.val < 512 by omega)] at h
      exact h.trans_eq (congrArg (fun r' : Fin 256 => (k0_pay33 (F := Ideal) (k0_pay5 x0) xs0 (ix2 r' n) : EReal))
        (Fin.ext (by show 256 + r.val - 256 = r.val; omega)))
    · have hr := r.isLt
      have h := K ⟨512 + r.val, by omega⟩
      unfold chunkRow at h
      rw [dif_neg (show ¬ 512 + r.val < 256 by omega), dif_neg (show ¬ 512 + r.val < 512 by omega),
        dif_pos (show 512 + r.val < 768 by omega)] at h
      exact h.trans_eq (congrArg (fun r' : Fin 256 => (k0_pay66 (F := Ideal) (k0_pay5 x0) xs0 (ix2 r' n) : EReal))
        (Fin.ext (by show 512 + r.val - 512 = r.val; omega)))
    · have hr := r.isLt
      have h := K ⟨768 + r.val, by omega⟩
      unfold chunkRow at h
      rw [dif_neg (show ¬ 768 + r.val < 256 by omega), dif_neg (show ¬ 768 + r.val < 512 by omega),
        dif_neg (show ¬ 768 + r.val < 768 by omega)] at h
      exact h.trans_eq (congrArg (fun r' : Fin 256 => (k0_pay94 (F := Ideal) (k0_pay5 x0) xs0 (ix2 r' n) : EReal))
        (Fin.ext (by show 768 + r.val - 768 = r.val; omega)))
  · rintro ⟨K0, K1, K2, K3⟩ k
    unfold chunkRow
    split_ifs
    · exact K0 _
    · exact K1 _
    · exact K2 _
    · exact K3 _

/-! ## The block's share, read at its one index -/

/-- The block's share at its one index: the sum over the columns `n` of the least score `chunkRow x0 xs0 k n` over the
    1024 center rows `k` (entry (k % 256, n) of product k / 256) plus the squared length of column `n` of the block. -/
theorem stepVal_apply (x0 : Vec Ideal S64x16384 .f32) (xs0 : Vec Ideal S1024x66 .bf16) :
    stepVal (F := Ideal) x0 xs0 (ix2 (0 : Fin 1) (0 : Fin 1))
      = ∑ n : Fin 16384, ((Finset.univ.inf fun k : Fin 1024 => chunkRow x0 xs0 k n)
          + ∑ d : Fin 64, (x0 (ix2 d n) : EReal) * (x0 (ix2 d n) : EReal)) := by
  obtain ⟨M, hM, hle⟩ := stepVal_split x0 xs0
  rw [hM, tailVal_apply]
  refine Finset.sum_congr rfl fun n _ => ?_
  refine congrArg₂ (· + ·) ?_ ?_
  · refine eq_of_forall_le_iff fun y => ?_
    rw [Finset.le_inf_iff, Finset.le_inf_iff]
    simp only [Finset.mem_univ, true_implies]
    rw [forall_chunkRow_iff, ← forall_sl_iff (k0_pay6 (F := Ideal) x0 xs0) y n,
      ← forall_sl_iff (k0_pay33 (F := Ideal) (k0_pay5 x0) xs0) y n,
      ← forall_sl_iff (k0_pay66 (F := Ideal) (k0_pay5 x0) xs0) y n,
      ← forall_sl_iff (k0_pay94 (F := Ideal) (k0_pay5 x0) xs0) y n]
    simp only [hle, forall_and]
  · refine Finset.sum_congr rfl fun d _ => ?_
    unfold k0_pay4
    rw [shapeCast_self]

end Cert.KernelIdeal.MinTree

end
-- ==== Proof.KernelValue.lean ====
/-
  The kernel's result at the ideal instance, in the specification's words: each block's share is the specification's
  share of that block against the centers' rows, the running total after the last point is the specification's kernel
  total, and the host's tail divides it by the row count.
-/
import proofs.«159115_g395136991332_cont_8to1_b_1330_20_alg».proof.Proof.Blocks
import proofs.«159115_g395136991332_cont_8to1_b_1330_20_alg».proof.Proof.ScoreRows
import proofs.«159115_g395136991332_cont_8to1_b_1330_20_alg».proof.Proof.MinTree
import proofs.«159115_g395136991332_cont_8to1_b_1330_20_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.KernelValue

open Cert.KernelIdeal Cert.KernelIdeal.Gen Cert.KernelIdeal.Loss Cert.KernelIdeal.Accumulate Cert.KernelIdeal.Blocks
open Cert.KernelIdeal.PayloadReads Cert.KernelIdeal.ScoreRows Cert.KernelIdeal.MinTree

variable (m : (ℓ : Loc nD τ sig) → Buf (Elt Ideal) ℓ)

/-- The factor -2 and the unit, as the kernel spells them. -/
abbrev m2 : EReal := Ideal.ofBits .f32 0xC0000000#32
abbrev one16 : EReal := Ideal.ofBits .bf16 0x3F80#16

/-- The embedded rows and the centers of the launch memory, row by row. -/
def E (c : Dev nD) : Fin 65536 → Fin 64 → EReal := fun r d => m ((c.tc : Thread nD τ).loc main_arg0) (ix2 r d)
def C (c : Dev nD) : Fin 1024 → Fin 64 → EReal := fun k d => m ((c.tc : Thread nD τ).loc main_arg1) (ix2 k d)

/-- A block's share, read: the specification's partial sum of the stored rows against the block's columns. -/
theorem stepVal_eq (x0 : Vec Ideal S64x16384 .f32) (xs0 : Vec Ideal S1024x66 .bf16) :
    stepVal (F := Ideal) x0 xs0 (ix2 (0 : Fin 1) (0 : Fin 1))
      = Cert.Spec.partialSum one16 (fun k j => xs0 (ix2 k j)) (fun n d => x0 (ix2 d n)) := by
  rw [stepVal_apply]
  unfold Cert.Spec.partialSum Cert.Spec.sqn
  refine Finset.sum_congr rfl fun n _ => ?_
  refine congrArg (· + _) ?_
  exact Finset.inf_congr rfl fun k _ => chunkRow_eq x0 xs0 k n

/-- Row k of the stored rows is the center's 66-entry row. -/
theorem rows_apply (c : Dev nD) (k : Fin 1024) (j : Fin 66) :
    rows m c (ix2 k j) = Cert.Spec.caug m2 (C m c k) j := by
  unfold rows
  rw [pay3_apply]
  refine congrArg (fun f => Cert.Spec.caug m2 f j) (funext fun d => ?_)
  exact centers_apply m c k d

/-- Every index of a 1 × 1 array is (0, 0). -/
theorem idx11 (j : S1x1.Idx) : j = ix2 (0 : Fin 1) (0 : Fin 1) := by
  funext a
  match a with
  | ⟨0, _⟩ => exact Fin.ext (by have h0 : (j 0).val < 1 := (j 0).isLt; show (j 0).val = 0; omega)
  | ⟨1, _⟩ => exact Fin.ext (by have h1 : (j 1).val < 1 := (j 1).isLt; show (j 1).val = 0; omega)

/-- One step of the accumulation, read: the running total plus the specification's share of block n. -/
theorem step_apply (c : Dev nD) (n : ℕ) (h : n < cfg0.N) (hn : n < 4) (xo : Vec Ideal S1x1 .f32) :
    step m c n h xo (ix2 (0 : Fin 1) (0 : Fin 1))
      = xo (ix2 (0 : Fin 1) (0 : Fin 1)) + Cert.Spec.share m2 one16 (E m c) (C m c) ⟨n, hn⟩ := by
  unfold step k0_pay2
  rw [addf_apply, shapeCast_self, stepVal_eq]
  unfold Cert.Spec.share
  refine congrArg (xo (ix2 (0 : Fin 1) (0 : Fin 1)) + ·) ?_
  refine congr (congrArg (Cert.Spec.partialSum one16) (funext fun k => funext fun j => rows_apply m c k j)) ?_
  funext q d
  rw [blockAt_apply]
  rfl

/-- The running total after the last point is the specification's kernel total. -/
theorem result_apply (c : Dev nD) :
    result m c (ix2 (0 : Fin 1) (0 : Fin 1)) = Cert.Spec.kernelTotal m2 one16 (E m c) (C m c) := by
  show acc3 m c (ix2 (0 : Fin 1) (0 : Fin 1)) = _
  unfold acc3 acc2 acc1 acc0
  rw [step_apply m c 3 _ (by decide), step_apply m c 2 _ (by decide), step_apply m c 1 _ (by decide),
    step_apply m c 0 _ (by decide)]
  unfold Cert.Spec.kernelTotal k0_pay1
  rw [broadcast_apply]
  show (((Ideal.ofBits .f32 0x00000000#32 + _) + _) + _) + _ = _
  rw [Ideal.ofBits_zero_f32]
  rfl

/-- The host's tail at its one index: the 1 × 1 array's entry divided by the row count. -/
theorem tail_apply (a : Vec Ideal S1x1 .f32) (i : S_.Idx) :
    tail (F := Ideal) a i = FloatOps.hostDivf (F := Ideal) (a (ix2 (0 : Fin 1) (0 : Fin 1))) (Ideal.ofBits .f32 0x47800000#32) := by
  unfold tail
  show FloatOps.hostDivf (F := Ideal) (shapeCast S_ a shapeCasts_S1x1_S_ i) (Ideal.ofBits .f32 0x47800000#32) = _
  unfold shapeCast
  exact congrArg (fun x => FloatOps.hostDivf (F := Ideal) (a x) (Ideal.ofBits .f32 0x47800000#32)) (idx11 _)

/-- The kernel's result, read: the specification's kernel total divided by the row count. -/
theorem value (c : Dev nD) (i : S_.Idx) :
    tail (F := Ideal) (result m c) i
      = FloatOps.hostDivf (F := Ideal) (Cert.Spec.kernelTotal m2 one16 (E m c) (C m c)) (Ideal.ofBits .f32 0x47800000#32) := by
  rw [tail_apply, result_apply]

end Cert.KernelIdeal.KernelValue

end
-- ==== Proof.RefValue.lean ====
/-
  The reference program's result, read on the extended reals.

  The reference forms, for every embedded row r and every center k, the number
  (|e_r|² - 2·⟨e_r, c_k⟩) + |c_k|², takes for each row the least of these over the 1024 centers (a fold of the
  minimum starting from +∞), adds the 65536 row minima starting from zero, and divides by 65536. Read index by
  index this is the specification's total over the rows of the least over the centers, divided by 65536.
-/
import proofs.«159115_g395136991332_cont_8to1_b_1330_20_alg».proof.Proof.Gen.ReferenceIdeal.Read
import proofs.«159115_g395136991332_cont_8to1_b_1330_20_alg».proof.Proof.Spec
import proofs.«159115_g395136991332_cont_8to1_b_1330_20_alg».proof.Proof.Finite
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read

/-- The zero word is zero. -/
private theorem zero_word : (FloatOps.ofBits .f32 0x00000000#32 : Ideal .f32) = (0 : EReal) := Ideal.ofBits_zero_f32

/-- The squared length of embedded row r, as the reference computes it: zero plus the sum of the squares. -/
private theorem rowSq (x0 : (⟨S65536x64, .f32⟩ : BufTy).Contents (Elt Ideal)) (r : Fin 65536) (k : Fin 1024) :
    val_main_v10 (F := Ideal) x0 (ix2 r k) = Cert.Spec.sqn (fun d => x0 (ix2 r d)) := by
  rw [val_main_v10_apply, val_main_v2_apply, val_main_v1_apply, val_main_cst_apply, zero_word, zero_add]
  unfold Cert.Spec.sqn
  refine Finset.sum_congr rfl fun d _ => ?_
  rw [val_main_v0_apply]
  have e : idx_main_v1 (idx_main_v2 (idx_main_v10 (ix2 r k))) d = ix2 r d :=
    funext fun a => by match a with | ⟨0, _⟩ => rfl | ⟨1, _⟩ => rfl
  rw [e]
  rfl

/-- The squared length of center k, as the reference computes it: zero plus the sum of the squares. -/
private theorem centerSq (x1 : (⟨S1024x64, .f32⟩ : BufTy).Contents (Elt Ideal)) (r : Fin 65536) (k : Fin 1024) :
    val_main_v12 (F := Ideal) x1 (ix2 r k) = Cert.Spec.sqn (fun d => x1 (ix2 k d)) := by
  rw [val_main_v12_apply, val_main_v5_apply, val_main_v4_apply, val_main_cst_0_apply, zero_word, zero_add]
  unfold Cert.Spec.sqn
  refine Finset.sum_congr rfl fun d _ => ?_
  rw [val_main_v3_apply]
  have e : idx_main_v4 (idx_main_v5 (idx_main_v12 (ix2 r k))) d = ix2 k d :=
    funext fun a => by match a with | ⟨0, _⟩ => rfl | ⟨1, _⟩ => rfl
  rw [e]
  rfl

/-- The inner product of row r with center k: the contraction reads the transposed centers at (d, k), that is the
    centers at (k, d). -/
private theorem cross (x0 : (⟨S65536x64, .f32⟩ : BufTy).Contents (Elt Ideal))
    (x1 : (⟨S1024x64, .f32⟩ : BufTy).Contents (Elt Ideal)) (r : Fin 65536) (k : Fin 1024) :
    val_main_v7 (F := Ideal) x0 x1 (ix2 r k) = Cert.Spec.dot (fun d => x0 (ix2 r d)) (fun d => x1 (ix2 k d)) := by
  rw [val_main_v7_apply]
  unfold Cert.Spec.dot
  refine Finset.sum_congr rfl fun d _ => ?_
  rw [val_main_v6_apply]
  have el : lidx_main_v7 (ix2 r k) d = ix2 r d :=
    funext fun a => by match a with | ⟨0, _⟩ => rfl | ⟨1, _⟩ => rfl
  have er : idx_main_v6 (ridx_main_v7 (ix2 r k) d) = ix2 k d :=
    funext fun a => by match a with | ⟨0, _⟩ => rfl | ⟨1, _⟩ => rfl
  rw [el, er]

/-- Entry (r, k) of the distance matrix: (|e_r|² - 2·⟨e_r, c_k⟩) + |c_k|², the factor 2 kept as its word. -/
theorem dist_apply (x0 : (⟨S65536x64, .f32⟩ : BufTy).Contents (Elt Ideal))
    (x1 : (⟨S1024x64, .f32⟩ : BufTy).Contents (Elt Ideal)) (r : Fin 65536) (k : Fin 1024) :
    val_main_v13 (F := Ideal) x0 x1 (ix2 r k)
      = (Cert.Spec.sqn (fun d => x0 (ix2 r d))
          - Ideal.ofBits .f32 0x40000000#32 * Cert.Spec.dot (fun d => x0 (ix2 r d)) (fun d => x1 (ix2 k d)))
        + Cert.Spec.sqn (fun d => x1 (ix2 k d)) := by
  rw [val_main_v13_apply, val_main_v11_apply, val_main_v9_apply, val_main_v8_apply, val_main_cst_1_apply,
    rowSq, centerSq, cross]
  rfl

/-- The distance matrix with its center axis removed is the vector of rows. -/
private theorem red : S65536x1024.Reduces [1] S65536 := by decide

/-- Row index r with center coordinate k put back on the removed axis is the matrix index (r, k). -/
private theorem lift_eq (r : Fin 65536) (k : Fin 1024) : red.lift (ix1 r) k = ix2 r k := by
  funext c
  apply Fin.ext
  match c with
  | ⟨0, _⟩ => rfl
  | ⟨1, _⟩ => rfl

/-- A fold of the minimum from +∞ over a finite family is the family's infimum. -/
private theorem fold_min_top {ι : Type} (s : Finset ι) (g : ι → EReal) :
    s.fold (FloatOps.minimumf (F := Ideal) (φ := .f32)) (⊤ : EReal) g = s.inf g := rfl

/-- The least distance of row r: the reduction over the center axis, a fold of the minimum from +∞, is the infimum
    over the 1024 centers. -/
theorem rowMin_apply (x0 : (⟨S65536x64, .f32⟩ : BufTy).Contents (Elt Ideal))
    (x1 : (⟨S1024x64, .f32⟩ : BufTy).Contents (Elt Ideal)) (r : Fin 65536) :
    val_main_v14 (F := Ideal) x0 x1 (ix1 r)
      = Finset.univ.inf fun k : Fin 1024 => val_main_v13 (F := Ideal) x0 x1 (ix2 r k) := by
  unfold val_main_v14
  generalize val_main_v13 (F := Ideal) x0 x1 = y
  rw [Host.reduce_eq_fold_single (FloatOps.minimumf (F := Ideal) (φ := .f32)) y _
    reducesTo_S65536x1024_S65536_d1 red h_S_ (ix1 r)]
  rw [val_main_cst_2_apply]
  have hy : (y ∘ red.lift (ix1 r)) = fun k : Fin 1024 => y (ix2 r k) :=
    funext fun k => congrArg y (lift_eq r k)
  rw [hy]
  exact (congrArg (fun t => (Finset.univ : Finset (Fin 1024)).fold (FloatOps.minimumf (F := Ideal) (φ := .f32)) t
    (fun k : Fin 1024 => y (ix2 r k))) Cert.Consts.ofBits_inf).trans (fold_min_top _ _)

/-- A row index of the vector of row minima is its one coordinate. -/
private def rowEquiv : S65536.Idx ≃ Fin 65536 where
  toFun j := j 0
  invFun r := ix1 r
  left_inv j := (eq_ix1 j).symm
  right_inv _ := rfl

/-- The reference's result at its one index: over the rows, the least over the centers of `(|e|² - 2⟨e, c⟩) + |c|²`, summed and
    divided by the row count. -/
theorem ref_value (x0 : (⟨S65536x64, .f32⟩ : BufTy).Contents (Elt Ideal)) (x1 : (⟨S1024x64, .f32⟩ : BufTy).Contents (Elt Ideal)) (i : S_.Idx) :
    val_main_v16 (F := Ideal) x0 x1 i
      = FloatOps.hostDivf (F := Ideal)
          (Cert.Spec.refTotal (Ideal.ofBits .f32 0x40000000#32) (fun r d => x0 (ix2 r d)) (fun k d => x1 (ix2 k d)))
          (Ideal.ofBits .f32 0x47800000#32) := by
  rw [val_main_v16_apply, val_main_v15_apply, val_main_cst_3_apply, val_main_cst_4_apply, zero_word, zero_add]
  refine congrArg (fun t => FloatOps.hostDivf (F := Ideal) (φ := .f32) t (Ideal.ofBits .f32 0x47800000#32)) ?_
  unfold Cert.Spec.refTotal
  refine (Equiv.sum_comp rowEquiv.symm (val_main_v14 (F := Ideal) x0 x1)).symm.trans ?_
  refine Finset.sum_congr rfl fun r _ => ?_
  refine (rowMin_apply x0 x1 r).trans ?_
  exact congrArg (fun g : Fin 1024 → EReal => Finset.univ.inf g) (funext fun k => dist_apply x0 x1 r k)

end Cert.ReferenceIdeal.RefValue

end
-- ==== Proof.RealLaw.lean ====
/-
  For real inputs the two totals of the codebook loss are the same extended real.

  Every quantity the two sides form from real rows is a real: a squared length, an inner product, and the kernel's
  66-entry pairing, whose last entry |c|² - |c|² is zero because |c|² is a real. So, center by center, the kernel's
  score plus |e|² and the reference's (|e|² - 2⟨e, c⟩) + |c|² are one real number. Adding the real |e|² commutes with
  taking the least over the 1024 centers, and the 65536 rows are the four blocks of 16384 rows in order.
-/
import proofs.«159115_g395136991332_cont_8to1_b_1330_20_alg».proof.Proof.Spec

noncomputable section

open scoped BigOperators

namespace Cert.Spec

/-! ### Sums of embedded reals -/

/-- A finite sum of embedded reals is the embedded sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The squared length of an embedded real row is the embedded real sum of squares. -/
theorem sqn_coe (x : Fin 64 → ℝ) :
    sqn (fun d => ((x d : ℝ) : EReal)) = ((∑ d : Fin 64, x d * x d : ℝ) : EReal) := by
  unfold sqn
  rw [← coe_finset_sum]
  exact Finset.sum_congr rfl fun d _ => (EReal.coe_mul _ _).symm

/-- The inner product of two embedded real rows is the embedded real inner product. -/
theorem dot_coe (x y : Fin 64 → ℝ) :
    dot (fun d => ((x d : ℝ) : EReal)) (fun d => ((y d : ℝ) : EReal))
      = ((∑ d : Fin 64, x d * y d : ℝ) : EReal) := by
  unfold dot
  rw [← coe_finset_sum]
  exact Finset.sum_congr rfl fun d _ => (EReal.coe_mul _ _).symm

/-! ### The kernel's score of a center against a row -/

/-- A sum over 66 entries is the sum over the first 64 plus entry 64 plus entry 65. -/
theorem sum_univ_66 (g : Fin 66 → EReal) :
    ∑ j : Fin 66, g j
      = (∑ d : Fin 64, g ⟨d.val, by have := d.isLt; omega⟩) + g ⟨64, by omega⟩ + g ⟨65, by omega⟩ := by
  rw [Fin.sum_univ_castSucc, Fin.sum_univ_castSucc]
  rfl

/-- Below 64 a center's 66-entry row holds `m2 · c_d`. -/
theorem caug_lt (m2 : EReal) (c : Fin 64 → EReal) (d : Fin 64) (h : d.val < 66) :
    caug m2 c ⟨d.val, h⟩ = m2 * c d := by
  unfold caug
  rw [dif_pos d.isLt]

/-- Entry 64 of a center's 66-entry row is `|c|²`. -/
theorem caug_64 (m2 : EReal) (c : Fin 64 → EReal) (h : 64 < 66) :
    caug m2 c ⟨64, h⟩ = sqn c := by
  unfold caug
  rw [dif_neg (by simp), if_pos rfl]

/-- Entry 65 of a center's 66-entry row is `|c|² - |c|²`. -/
theorem caug_65 (m2 : EReal) (c : Fin 64 → EReal) (h : 65 < 66) :
    caug m2 c ⟨65, h⟩ = sqn c - sqn c := by
  unfold caug
  rw [dif_neg (by simp), if_neg (by simp)]

/-- Below 64 an embedded row's 66-entry column holds `e_d`. -/
theorem eaug_lt (one : EReal) (e : Fin 64 → EReal) (d : Fin 64) (h : d.val < 66) :
    eaug one e ⟨d.val, h⟩ = e d := by
  unfold eaug
  rw [dif_pos d.isLt]

/-- From 64 on an embedded row's 66-entry column holds the unit. -/
theorem eaug_ge (one : EReal) (e : Fin 64 → EReal) (j : Fin 66) (h : ¬ j.val < 64) :
    eaug one e j = one := by
  unfold eaug
  rw [dif_neg h]

/-- The score of a center's 66-entry row against a row: `∑ (m2 c_d) e_d + |c|² u + (|c|² - |c|²) u`. -/
theorem kscore_caug (m2 one : EReal) (c e : Fin 64 → EReal) :
    kscore one (caug m2 c) e
      = (∑ d : Fin 64, (m2 * c d) * e d) + sqn c * one + (sqn c - sqn c) * one := by
  unfold kscore
  rw [sum_univ_66, caug_64, caug_65, eaug_ge one e ⟨64, by omega⟩ (by simp),
    eaug_ge one e ⟨65, by omega⟩ (by simp)]
  refine congrArg (fun s => s + sqn c * one + (sqn c - sqn c) * one) (Finset.sum_congr rfl fun d _ => ?_)
  rw [caug_lt, eaug_lt]

/-- For real rows the score is the embedded real `-2 ⟨c, e⟩ + |c|²`. -/
theorem kscore_coe (c e : Fin 64 → ℝ) :
    kscore (1 : EReal) (caug ((-2 : ℝ) : EReal) (fun d => ((c d : ℝ) : EReal))) (fun d => ((e d : ℝ) : EReal))
      = (((-2) * (∑ d : Fin 64, c d * e d) + ∑ d : Fin 64, c d * c d : ℝ) : EReal) := by
  rw [kscore_caug, sqn_coe, mul_one, mul_one, ← EReal.coe_sub, sub_self, EReal.coe_zero, add_zero]
  have h : (∑ d : Fin 64, (((-2 : ℝ) : EReal) * ((c d : ℝ) : EReal)) * ((e d : ℝ) : EReal))
      = (((-2) * (∑ d : Fin 64, c d * e d) : ℝ) : EReal) := by
    rw [Finset.mul_sum, ← coe_finset_sum]
    refine Finset.sum_congr rfl fun d _ => ?_
    rw [← EReal.coe_mul, ← EReal.coe_mul, mul_assoc]
  rw [h, ← EReal.coe_add]

/-! ### The reference's entry -/

/-- For real rows the reference's entry is the embedded real `|e|² - 2 ⟨e, c⟩ + |c|²`. -/
theorem refEntry_coe (c e : Fin 64 → ℝ) :
    (sqn (fun d => ((e d : ℝ) : EReal))
        - ((2 : ℝ) : EReal) * dot (fun d => ((e d : ℝ) : EReal)) (fun d => ((c d : ℝ) : EReal)))
      + sqn (fun d => ((c d : ℝ) : EReal))
      = (((∑ d : Fin 64, e d * e d) - 2 * (∑ d : Fin 64, e d * c d) + ∑ d : Fin 64, c d * c d : ℝ) : EReal) := by
  rw [sqn_coe, sqn_coe, dot_coe, ← EReal.coe_mul, ← EReal.coe_sub, ← EReal.coe_add]

/-- Center by center, the kernel's score plus `|e|²` is the reference's entry. -/
theorem kscore_add_sqn_eq_refEntry (c e : Fin 64 → ℝ) :
    kscore (1 : EReal) (caug ((-2 : ℝ) : EReal) (fun d => ((c d : ℝ) : EReal))) (fun d => ((e d : ℝ) : EReal))
        + sqn (fun d => ((e d : ℝ) : EReal))
      = (sqn (fun d => ((e d : ℝ) : EReal))
          - ((2 : ℝ) : EReal) * dot (fun d => ((e d : ℝ) : EReal)) (fun d => ((c d : ℝ) : EReal)))
        + sqn (fun d => ((c d : ℝ) : EReal)) := by
  rw [refEntry_coe, kscore_coe, sqn_coe, ← EReal.coe_add]
  congr 1
  have h : (∑ d : Fin 64, c d * e d) = ∑ d : Fin 64, e d * c d :=
    Finset.sum_congr rfl fun d _ => mul_comm _ _
  rw [h]
  ring

/-! ### The least over the centers and a fixed real summand -/

/-- Adding a fixed real on the right commutes with the least over a finite family. -/
theorem inf_add_coe {ι : Type*} (s : Finset ι) (f : ι → EReal) (a : ℝ) :
    (s.inf f) + ((a : ℝ) : EReal) = s.inf fun k => f k + ((a : ℝ) : EReal) :=
  Finset.apply_inf_eq_inf_comp_of_linearOrder (fun x : EReal => x + ((a : ℝ) : EReal))
    (fun _ _ h => add_le_add h le_rfl) (EReal.top_add_coe a)

/-- For a real row, the least score over the centers plus `|e|²` is the least of the reference's entries. -/
theorem inf_kscore_add_sqn (c' : Fin 1024 → Fin 64 → ℝ) (e : Fin 64 → ℝ) :
    (Finset.univ.inf fun k : Fin 1024 =>
        kscore (1 : EReal) (caug ((-2 : ℝ) : EReal) (fun d => ((c' k d : ℝ) : EReal))) (fun d => ((e d : ℝ) : EReal)))
        + sqn (fun d => ((e d : ℝ) : EReal))
      = Finset.univ.inf fun k : Fin 1024 =>
          (sqn (fun d => ((e d : ℝ) : EReal))
            - ((2 : ℝ) : EReal) * dot (fun d => ((e d : ℝ) : EReal)) (fun d => ((c' k d : ℝ) : EReal)))
          + sqn (fun d => ((c' k d : ℝ) : EReal)) := by
  have hs : sqn (fun d => ((e d : ℝ) : EReal)) = ((∑ d : Fin 64, e d * e d : ℝ) : EReal) := sqn_coe e
  rw [hs, inf_add_coe, ← hs]
  exact Finset.inf_congr rfl fun k _ => kscore_add_sqn_eq_refEntry (c' k) e

/-! ### The four blocks of rows -/

/-- A sum over 65536 rows is the sum over four blocks of 16384 rows, block `t` holding rows `16384 t + n`. -/
theorem sum_univ_blocks {M : Type*} [AddCommMonoid M] (g : Fin 65536 → M) :
    ∑ i : Fin 65536, g i
      = ∑ t : Fin 4, ∑ n : Fin 16384,
          g ⟨16384 * t.val + n.val, by have := t.isLt; have := n.isLt; omega⟩ := by
  rw [← Fintype.sum_prod_type']
  refine (Fintype.sum_equiv (finProdFinEquiv : Fin 4 × Fin 16384 ≃ Fin 65536) _ _ fun p => ?_).symm
  refine congrArg g (Fin.ext ?_)
  show 16384 * p.1.val + p.2.val = p.2.val + 16384 * p.1.val
  omega

/-- The reference's summand for row `i`. -/
def refRow (e' : Fin 65536 → Fin 64 → ℝ) (c' : Fin 1024 → Fin 64 → ℝ) (i : Fin 65536) : EReal :=
  Finset.univ.inf fun k : Fin 1024 =>
    (sqn (fun d => ((e' i d : ℝ) : EReal))
      - ((2 : ℝ) : EReal) * dot (fun d => ((e' i d : ℝ) : EReal)) (fun d => ((c' k d : ℝ) : EReal)))
    + sqn (fun d => ((c' k d : ℝ) : EReal))

/-- For real inputs, block `t`'s share is the sum of the reference's summands over the block's rows. -/
theorem share_coe (e' : Fin 65536 → Fin 64 → ℝ) (c' : Fin 1024 → Fin 64 → ℝ) (t : Fin 4) :
    share ((-2 : ℝ) : EReal) (1 : EReal) (fun r d => ((e' r d : ℝ) : EReal)) (fun k d => ((c' k d : ℝ) : EReal)) t
      = ∑ n : Fin 16384,
          refRow e' c' ⟨16384 * t.val + n.val, by have := t.isLt; have := n.isLt; omega⟩ := by
  unfold share partialSum
  exact Finset.sum_congr rfl fun n _ => inf_kscore_add_sqn c' _

/-- For real inputs the kernel's total and the reference's total are the same extended real. -/
theorem kernelTotal_eq_refTotal (e' : Fin 65536 → Fin 64 → ℝ) (c' : Fin 1024 → Fin 64 → ℝ) :
    kernelTotal ((-2 : ℝ) : EReal) (1 : EReal) (fun r d => ((e' r d : ℝ) : EReal)) (fun k d => ((c' k d : ℝ) : EReal))
      = refTotal ((2 : ℝ) : EReal) (fun r d => ((e' r d : ℝ) : EReal)) (fun k d => ((c' k d : ℝ) : EReal)) := by
  have hr : refTotal ((2 : ℝ) : EReal) (fun r d => ((e' r d : ℝ) : EReal)) (fun k d => ((c' k d : ℝ) : EReal))
      = ∑ i : Fin 65536, refRow e' c' i := rfl
  rw [hr, sum_univ_blocks, Fin.sum_univ_four]
  unfold kernelTotal
  rw [share_coe, share_coe, share_coe, share_coe, zero_add]

end Cert.Spec

end
-- ==== Proof.lean ====
/-
  The five claims, assembled.

  Both programs compute the mean, over the 65536 embedded rows e, of the least squared distance to the 1024 centers c.
  The reference forms (|e|² - 2⟨e, c⟩) + |c|² for every pair, takes the least over the centers, sums over the rows and
  divides by 65536. The kernel works block by block on the transposed rows: it stores once, per center, the 66 numbers
  (-2c, |c|², |c|² - |c|²), multiplies them against (e, 1, 1), takes the least over the centers, adds |e|², sums over
  the block's rows, accumulates the four blocks' sums from zero, and the host divides by 65536. For finite inputs the two
  are the same extended real: |c|² - |c|² = 0 and -2·Σ c_d e_d = Σ (-2 c_d) e_d need the entries to be real, which the
  precondition gives; the least over the centers commutes with adding |e|²; and a sum over 65536 rows is the sum of
  its four blocks.

  The frames of the two kernel programs are the generated ones; the reference's frame is its generated run with the
  result dropped; the one rewrite of the idealization (a narrowing to bf16 widened back, read as the identity) is its
  rule's statement.
-/
import proofs.«159115_g395136991332_cont_8to1_b_1330_20_alg».proof.Defs
import proofs.«159115_g395136991332_cont_8to1_b_1330_20_alg».proof.Proof.Gen.Kernel
import proofs.«159115_g395136991332_cont_8to1_b_1330_20_alg».proof.Proof.Gen.Kernel.Skeleton
import proofs.«159115_g395136991332_cont_8to1_b_1330_20_alg».proof.Proof.Gen.Kernel.Launch
import proofs.«159115_g395136991332_cont_8to1_b_1330_20_alg».proof.Proof.Gen.Kernel.Points
import proofs.«159115_g395136991332_cont_8to1_b_1330_20_alg».proof.Proof.Gen.Kernel.Frame
import proofs.«159115_g395136991332_cont_8to1_b_1330_20_alg».proof.Proof.Gen.KernelIdeal
import proofs.«159115_g395136991332_cont_8to1_b_1330_20_alg».proof.Proof.Gen.KernelIdeal.Skeleton
import proofs.«159115_g395136991332_cont_8to1_b_1330_20_alg».proof.Proof.Gen.KernelIdeal.Launch
import proofs.«159115_g395136991332_cont_8to1_b_1330_20_alg».proof.Proof.Gen.KernelIdeal.Points
import proofs.«159115_g395136991332_cont_8to1_b_1330_20_alg».proof.Proof.Gen.KernelIdeal.Frame
import proofs.«159115_g395136991332_cont_8to1_b_1330_20_alg».proof.Proof.Gen.ReferenceIdeal
import proofs.«159115_g395136991332_cont_8to1_b_1330_20_alg».proof.Proof.Gen.ReferenceIdeal.Run
import proofs.«159115_g395136991332_cont_8to1_b_1330_20_alg».proof.Proof.Gen.ReferenceIdeal.Read
import proofs.«159115_g395136991332_cont_8to1_b_1330_20_alg».proof.Proof.Gen.Pre_finite_inputs
import proofs.«159115_g395136991332_cont_8to1_b_1330_20_alg».proof.Proof.KernelValue
import proofs.«159115_g395136991332_cont_8to1_b_1330_20_alg».proof.Proof.RefValue
import proofs.«159115_g395136991332_cont_8to1_b_1330_20_alg».proof.Proof.RealLaw
import proofs.«159115_g395136991332_cont_8to1_b_1330_20_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: a 1024 × 1 column narrowed to bf16 and widened back is read as the column. -/
theorem preserves : Cert.preserves_Kernel_KernelIdeal :=
  IdealRules.truncf_extf.statement Cert.KernelIdeal.S1024x1 .f32 .bf16

/-- For real entries the reference's total is the kernel's total (the real-number law, with the programs' literals
    read as -2, 2 and 1). -/
theorem totals_eq (E : Fin 65536 → Fin 64 → EReal) (C : Fin 1024 → Fin 64 → EReal)
    (hE : ∃ e' : Fin 65536 → Fin 64 → ℝ, ∀ r d, E r d = ((e' r d : ℝ) : EReal))
    (hC : ∃ c' : Fin 1024 → Fin 64 → ℝ, ∀ k d, C k d = ((c' k d : ℝ) : EReal)) :
    Cert.Spec.refTotal (Ideal.ofBits .f32 0x40000000#32) E C
      = Cert.Spec.kernelTotal (Ideal.ofBits .f32 0xC0000000#32) (Ideal.ofBits .bf16 0x3F80#16) E C := by
  obtain ⟨e', he⟩ := hE
  obtain ⟨c', hc⟩ := hC
  obtain rfl : E = fun r d => ((e' r d : ℝ) : EReal) := funext fun r => funext fun d => he r d
  obtain rfl : C = fun k d => ((c' k d : ℝ) : EReal) := funext fun k => funext fun d => hc k d
  rw [Cert.Consts.ofBits_two, Cert.Consts.ofBits_neg_two, Cert.Consts.ofBits_one_bf16]
  exact (Cert.Spec.kernelTotal_eq_refTotal e' c').symm

/-- From memories agreeing on the arguments, under the precondition, both idealized programs end with the same result. -/
theorem algebraic : Cert.algebraic_KernelIdeal_ReferenceIdeal := by
  intro m ρ m' ρ' hpre hagree
  refine ⟨fun c => Cert.KernelIdeal.Accumulate.tail (Cert.KernelIdeal.Accumulate.result m c),
    Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  funext i
  rw [Cert.ReferenceIdeal.RefValue.ref_value]
  refine Eq.trans ?_ (Cert.KernelIdeal.KernelValue.value m c i).symm
  have hfin := Cert.Finite.real_of_pre _ _ (hpre c)
  exact congrArg (fun x => FloatOps.hostDivf (F := Ideal) x (Ideal.ofBits .f32 0x47800000#32))
    (totals_eq (Cert.KernelIdeal.KernelValue.E m c) (Cert.KernelIdeal.KernelValue.C m c) hfin.1 hfin.2)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
